-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x4096x481x2 : Shape := ⟨5, ![8, 1, 4096, 481, 2]⟩
abbrev S8x5x4096x96x2 : Shape := ⟨5, ![8, 5, 4096, 96, 2]⟩
abbrev S_ : Shape := ⟨0, ![]⟩

class Facts : Prop where
  bcast_S_S8x1x4096x481x2 : S_.BroadcastsInDim S8x1x4096x481x2 (![] : Fin 0 → Fin S8x1x4096x481x2.rank)
  reducesTo_S8x1x4096x481x2_S_d0_1_2_3_4 : S8x1x4096x481x2.ReducesTo [0, 1, 2, 3, 4] S_
  h_S_ : 0 < S_.numel
  bcast_S_S8x5x4096x96x2 : S_.BroadcastsInDim S8x5x4096x96x2 (![] : Fin 0 → Fin S8x5x4096x96x2.rank)
  reducesTo_S8x5x4096x96x2_S_d0_1_2_3_4 : S8x5x4096x96x2.ReducesTo [0, 1, 2, 3, 4] S_

variable [Facts]

def fn {F : FTy → Type} [FloatOps F] (main_arg0 : FVec F S8x1x4096x481x2 .f32) (main_arg1 : FVec F S8x5x4096x96x2 .f32) : IVec S_ 1 :=
  let main_v0 : FVec F S8x1x4096x481x2 .f32 := Host.absf main_arg0
  let main_cst : FVec F S_ .f32 := constant S_ .f32 0x7F800000#32
  let main_v1 : FVec F S8x1x4096x481x2 .f32 := broadcastInDim S8x1x4096x481x2 ![] bcast_S_S8x1x4096x481x2 main_cst
  let main_v2 : IVec S8x1x4096x481x2 1 := cmpf .olt main_v0 main_v1
  let main_c : IVec S_ 1 := constantI S_ 1 1#1
  let main_v3 : IVec S_ 1 := (fun x v => Host.reduce IntOp.andi x v reducesTo_S8x1x4096x481x2_S_d0_1_2_3_4 h_S_) main_v2 main_c
  let main_v4 : FVec F S8x5x4096x96x2 .f32 := Host.absf main_arg1
  let main_cst_0 : FVec F S_ .f32 := constant S_ .f32 0x7F800000#32
  let main_v5 : FVec F S8x5x4096x96x2 .f32 := broadcastInDim S8x5x4096x96x2 ![] bcast_S_S8x5x4096x96x2 main_cst_0
  let main_v6 : IVec S8x5x4096x96x2 1 := cmpf .olt main_v4 main_v5
  let main_c_1 : IVec S_ 1 := constantI S_ 1 1#1
  let main_v7 : IVec S_ 1 := (fun x v => Host.reduce IntOp.andi x v reducesTo_S8x5x4096x96x2_S_d0_1_2_3_4 h_S_) main_v6 main_c_1
  let main_v8 : IVec S_ 1 := andi main_v3 main_v7
  main_v8
-- ==== Kernel.lean ====
abbrev S8x1x4096x481x2 : Shape := ⟨5, ![8, 1, 4096, 481, 2]⟩
abbrev S8x5x4096x96x2 : Shape := ⟨5, ![8, 5, 4096, 96, 2]⟩
abbrev S8x1x4096x96x2 : Shape := ⟨5, ![8, 1, 4096, 96, 2]⟩
abbrev S8x4096x96x2 : Shape := ⟨4, ![8, 4096, 96, 2]⟩
abbrev S8x4096x96x1 : Shape := ⟨4, ![8, 4096, 96, 1]⟩
abbrev S8x4096x96 : Shape := ⟨3, ![8, 4096, 96]⟩
abbrev S8x5x4096x96x1 : Shape := ⟨5, ![8, 5, 4096, 96, 1]⟩
abbrev S8x5x4096x96 : Shape := ⟨4, ![8, 5, 4096, 96]⟩
abbrev S1x1024x96 : Shape := ⟨3, ![1, 1024, 96]⟩
abbrev S1x5x1024x96 : Shape := ⟨4, ![1, 5, 1024, 96]⟩
abbrev S4x96 : Shape := ⟨2, ![4, 96]⟩
abbrev S1028x96 : Shape := ⟨2, ![1028, 96]⟩
abbrev S1024x96 : Shape := ⟨2, ![1024, 96]⟩
abbrev S5x1024x96 : Shape := ⟨3, ![5, 1024, 96]⟩
abbrev S1x4x96 : Shape := ⟨3, ![1, 4, 96]⟩
abbrev S8x1x4096x385x2 : Shape := ⟨5, ![8, 1, 4096, 385, 2]⟩

abbrev nBuf : Space → Nat
  | .hbm => 20
  | .vmem => 16
  | .smem => 0
  | _ => 0

abbrev bufTy : (tb : Table) → Fin (tcTables nBuf tb) → BufTy
  | .hbm, ⟨0, _⟩ => ⟨S8x1x4096x481x2, .f32⟩
  | .hbm, ⟨1, _⟩ => ⟨S8x5x4096x96x2, .f32⟩
  | .hbm, ⟨2, _⟩ => ⟨S8x1x4096x96x2, .f32⟩
  | .hbm, ⟨3, _⟩ => ⟨S8x4096x96x2, .f32⟩
  | .hbm, ⟨4, _⟩ => ⟨S8x4096x96x1, .f32⟩
  | .hbm, ⟨5, _⟩ => ⟨S8x4096x96, .f32⟩
  | .hbm, ⟨6, _⟩ => ⟨S8x4096x96x1, .f32⟩
  | .hbm, ⟨7, _⟩ => ⟨S8x4096x96, .f32⟩
  | .hbm, ⟨8, _⟩ => ⟨S8x5x4096x96x1, .f32⟩
  | .hbm, ⟨9, _⟩ => ⟨S8x5x4096x96, .f32⟩
  | .hbm, ⟨10, _⟩ => ⟨S8x5x4096x96x1, .f32⟩
  | .hbm, ⟨11, _⟩ => ⟨S8x5x4096x96, .f32⟩
  | .hbm, ⟨12, _⟩ => ⟨S8x4096x96, .f32⟩
  | .hbm, ⟨13, _⟩ => ⟨S8x4096x96, .f32⟩
  | .hbm, ⟨14, _⟩ => ⟨S8x4096x96x1, .f32⟩
  | .hbm, ⟨15, _⟩ => ⟨S8x4096x96x1, .f32⟩
  | .hbm, ⟨16, _⟩ => ⟨S8x4096x96x2, .f32⟩
  | .hbm, ⟨17, _⟩ => ⟨S8x1x4096x96x2, .f32⟩
  | .hbm, ⟨18, _⟩ => ⟨S8x1x4096x385x2, .f32⟩
  | .hbm, ⟨19, _⟩ => ⟨S8x1x4096x481x2, .f32⟩
  | .local _ .vmem, ⟨0, _⟩ => ⟨S1x1024x96, .f32⟩
  | .local _ .vmem, ⟨1, _⟩ => ⟨S1x1024x96, .f32⟩
  | .local _ .vmem, ⟨2, _⟩ => ⟨S1x1024x96, .f32⟩
  | .local _ .vmem, ⟨3, _⟩ => ⟨S1x1024x96, .f32⟩
  | .local _ .vmem, ⟨4, _⟩ => ⟨S1x5x1024x96, .f32⟩
  | .local _ .vmem, ⟨5, _⟩ => ⟨S1x5x1024x96, .f32⟩
  | .local _ .vmem, ⟨6, _⟩ => ⟨S1x5x1024x96, .f32⟩
  | .local _ .vmem, ⟨7, _⟩ => ⟨S1x5x1024x96, .f32⟩
  | .local _ .vmem, ⟨8, _⟩ => ⟨S1x1024x96, .f32⟩
  | .local _ .vmem, ⟨9, _⟩ => ⟨S1x1024x96, .f32⟩
  | .local _ .vmem, ⟨10, _⟩ => ⟨S1x1024x96, .f32⟩
  | .local _ .vmem, ⟨11, _⟩ => ⟨S1x1024x96, .f32⟩
  | .local _ .vmem, ⟨12, _⟩ => ⟨S4x96, .f32⟩
  | .local _ .vmem, ⟨13, _⟩ => ⟨S4x96, .f32⟩
  | .local _ .vmem, ⟨14, _⟩ => ⟨S1028x96, .f32⟩
  | .local _ .vmem, ⟨15, _⟩ => ⟨S1028x96, .f32⟩
  | _, _ => ⟨S8x1x4096x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x1024x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x1024x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x1x4096x481x2_S8x1x4096x96x2_0_0_0_0_0 : S8x1x4096x481x2.Slices ![0, 0, 0, 0, 0] S8x1x4096x96x2
  shapeCasts_S8x1x4096x96x2_S8x4096x96x2 : S8x1x4096x96x2.ShapeCasts S8x4096x96x2
  slices_S8x4096x96x2_S8x4096x96x1_0_0_0_0 : S8x4096x96x2.Slices ![0, 0, 0, 0] S8x4096x96x1
  shapeCasts_S8x4096x96x1_S8x4096x96 : S8x4096x96x1.ShapeCasts S8x4096x96
  slices_S8x4096x96x2_S8x4096x96x1_0_0_0_1 : S8x4096x96x2.Slices ![0, 0, 0, 1] S8x4096x96x1
  slices_S8x5x4096x96x2_S8x5x4096x96x1_0_0_0_0_0 : S8x5x4096x96x2.Slices ![0, 0, 0, 0, 0] S8x5x4096x96x1
  shapeCasts_S8x5x4096x96x1_S8x5x4096x96 : S8x5x4096x96x1.ShapeCasts S8x5x4096x96
  slices_S8x5x4096x96x2_S8x5x4096x96x1_0_0_0_0_1 : S8x5x4096x96x2.Slices ![0, 0, 0, 0, 1] S8x5x4096x96x1
  inb_S4x96_S4x96_0_0 : ∀ a, (![0, 0] : Fin 2 → Nat) a + S4x96.size a ≤ S4x96.size a
  h_S4x96 : 0 < S4x96.numel
  shapeCasts_S4x96_S4x96 : S4x96.ShapeCasts S4x96
  inb_S1028x96_S4x96_0_0 : ∀ a, (![0, 0] : Fin 2 → Nat) a + S4x96.size a ≤ S1028x96.size a
  inb_S1x1024x96_S1x1024x96_0_0_0 : ∀ a, (![0, 0, 0] : Fin 3 → Nat) a + S1x1024x96.size a ≤ S1x1024x96.size a
  h_S1x1024x96 : 0 < S1x1024x96.numel
  shapeCasts_S1x1024x96_S1024x96 : S1x1024x96.ShapeCasts S1024x96
  inb_S1028x96_S1024x96_4_0 : ∀ a, (![4, 0] : Fin 2 → Nat) a + S1024x96.size a ≤ S1028x96.size a
  h_S1024x96 : 0 < S1024x96.numel
  shapeCasts_S1024x96_S1024x96 : S1024x96.ShapeCasts S1024x96
  inb_S1x5x1024x96_S1x5x1024x96_0_0_0_0 : ∀ a, (![0, 0, 0, 0] : Fin 4 → Nat) a + S1x5x1024x96.size a ≤ S1x5x1024x96.size a
  h_S1x5x1024x96 : 0 < S1x5x1024x96.numel
  shapeCasts_S1x5x1024x96_S5x1024x96 : S1x5x1024x96.ShapeCasts S5x1024x96
  inb_S1028x96_S1024x96_0_0 : ∀ a, (![0, 0] : Fin 2 → Nat) a + S1024x96.size a ≤ S1028x96.size a
  slices_S5x1024x96_o0_0_0_S1x1024x96 : S5x1024x96.Slices ![0, 0, 0] S1x1024x96
  inb_S1028x96_S1024x96_1_0 : ∀ a, (![1, 0] : Fin 2 → Nat) a + S1024x96.size a ≤ S1028x96.size a
  slices_S5x1024x96_o1_0_0_S1x1024x96 : S5x1024x96.Slices ![1, 0, 0] S1x1024x96
  inb_S1028x96_S1024x96_2_0 : ∀ a, (![2, 0] : Fin 2 → Nat) a + S1024x96.size a ≤ S1028x96.size a
  slices_S5x1024x96_o2_0_0_S1x1024x96 : S5x1024x96.Slices ![2, 0, 0] S1x1024x96
  inb_S1028x96_S1024x96_3_0 : ∀ a, (![3, 0] : Fin 2 → Nat) a + S1024x96.size a ≤ S1028x96.size a
  slices_S5x1024x96_o3_0_0_S1x1024x96 : S5x1024x96.Slices ![3, 0, 0] S1x1024x96
  slices_S5x1024x96_o4_0_0_S1x1024x96 : S5x1024x96.Slices ![4, 0, 0] S1x1024x96
  shapeCasts_S1024x96_S1x1024x96 : S1024x96.ShapeCasts S1x1024x96
  inb_S1x1024x96_S1x4x96_0_1020_0 : ∀ a, (![0, 1020, 0] : Fin 3 → Nat) a + S1x4x96.size a ≤ S1x1024x96.size a
  h_S1x4x96 : 0 < S1x4x96.numel
  shapeCasts_S1x4x96_S4x96 : S1x4x96.ShapeCasts S4x96
  bcast_S8x4096x96_S8x4096x96x1_0_1_2 : S8x4096x96.BroadcastsInDim S8x4096x96x1 (![0, 1, 2] : Fin 3 → Fin S8x4096x96x1.rank)
  concatenates_S8x4096x96x1_S8x4096x96x1_S8x4096x96x2_d3 : Shape.Concatenates [S8x4096x96x1, S8x4096x96x1] S8x4096x96x2 3
  bcast_S8x4096x96x2_S8x1x4096x96x2_0_2_3_4 : S8x4096x96x2.BroadcastsInDim S8x1x4096x96x2 (![0, 2, 3, 4] : Fin 4 → Fin S8x1x4096x96x2.rank)
  slices_S8x1x4096x481x2_S8x1x4096x385x2_0_0_0_96_0 : S8x1x4096x481x2.Slices ![0, 0, 0, 96, 0] S8x1x4096x385x2
  concatenates_S8x1x4096x96x2_S8x1x4096x385x2_S8x1x4096x481x2_d3 : Shape.Concatenates [S8x1x4096x96x2, S8x1x4096x385x2] S8x1x4096x481x2 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x96.size a ≤ S8x4096x96.size a
  hwx0_0 : ∀ i : grid0.Coords, EltTy.bits .f32 = 32 ∨ (Rect.block (s := S8x4096x96) S1x1024x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x96.size a ≤ S8x4096x96.size a
  hwx0_1 : ∀ i : grid0.Coords, EltTy.bits .f32 = 32 ∨ (Rect.block (s := S8x4096x96) S1x1024x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x1024x96.size a ≤ S8x5x4096x96.size a
  hwx0_2 : ∀ i : grid0.Coords, EltTy.bits .f32 = 32 ∨ (Rect.block (s := S8x5x4096x96) S1x5x1024x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x1024x96.size a ≤ S8x5x4096x96.size a
  hwx0_3 : ∀ i : grid0.Coords, EltTy.bits .f32 = 32 ∨ (Rect.block (s := S8x5x4096x96) S1x5x1024x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x96.size a ≤ S8x4096x96.size a
  hwx0_4 : ∀ i : grid0.Coords, EltTy.bits .f32 = 32 ∨ (Rect.block (s := S8x4096x96) S1x1024x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x96.size a ≤ S8x4096x96.size a
  hwx0_5 : ∀ i : grid0.Coords, EltTy.bits .f32 = 32 ∨ (Rect.block (s := S8x4096x96) S1x1024x96.size (cc0_transform_5 i) (hinb0_5 i)).WholeWords (EltTy.packing .f32)

variable [Facts₀]

abbrev win0_0 : Pipeline.Window sig grid0 :=
  Pipeline.Window.ofSpec (Memref.whole main_v3) S1x1024x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x5x1024x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x5x1024x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1024x96.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1024x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1x4096x481x2 : Shape := ⟨5, ![8, 1, 4096, 481, 2]⟩
abbrev S8x5x4096x96x2 : Shape := ⟨5, ![8, 5, 4096, 96, 2]⟩
abbrev S8x1x4096x96x2 : Shape := ⟨5, ![8, 1, 4096, 96, 2]⟩
abbrev S_ : Shape := ⟨0, ![]⟩
abbrev S8x1x4100x96x2 : Shape := ⟨5, ![8, 1, 4100, 96, 2]⟩
abbrev S4096 : Shape := ⟨1, ![4096]⟩
abbrev S4096x1 : Shape := ⟨2, ![4096, 1]⟩
abbrev S5 : Shape := ⟨1, ![5]⟩
abbrev S1x5 : Shape := ⟨2, ![1, 5]⟩
abbrev S4096x5 : Shape := ⟨2, ![4096, 5]⟩
abbrev S4096x5x1 : Shape := ⟨3, ![4096, 5, 1]⟩
abbrev S8x1x4096x5x96x2 : Shape := ⟨6, ![8, 1, 4096, 5, 96, 2]⟩
abbrev S8x1x4096x96x5x2 : Shape := ⟨6, ![8, 1, 4096, 96, 5, 2]⟩
abbrev S8x1x5x4096x96x2 : Shape := ⟨6, ![8, 1, 5, 4096, 96, 2]⟩
abbrev S8x1x4096x96x5x1 : Shape := ⟨6, ![8, 1, 4096, 96, 5, 1]⟩
abbrev S8x1x4096x96x5 : Shape := ⟨5, ![8, 1, 4096, 96, 5]⟩
abbrev S8x1x4096x96 : Shape := ⟨4, ![8, 1, 4096, 96]⟩
abbrev S8x1x4096x96x1 : Shape := ⟨5, ![8, 1, 4096, 96, 1]⟩
abbrev S8x1x4096x385x2 : Shape := ⟨5, ![8, 1, 4096, 385, 2]⟩

abbrev nBuf : Space → Nat
  | .hbm => 48
  | .vmem => 0
  | .smem => 0
  | _ => 0

abbrev bufTy : (tb : Table) → Fin (tcTables nBuf tb) → BufTy
  | .hbm, ⟨0, _⟩ => ⟨S8x1x4096x481x2, .f32⟩
  | .hbm, ⟨1, _⟩ => ⟨S8x5x4096x96x2, .f32⟩
  | .hbm, ⟨2, _⟩ => ⟨S8x1x4096x96x2, .f32⟩
  | .hbm, ⟨3, _⟩ => ⟨S_, .i32⟩
  | .hbm, ⟨4, _⟩ => ⟨S_, .f32⟩
  | .hbm, ⟨5, _⟩ => ⟨S8x1x4100x96x2, .f32⟩
  | .hbm, ⟨6, _⟩ => ⟨S4096, .i32⟩
  | .hbm, ⟨7, _⟩ => ⟨S4096x1, .i32⟩
  | .hbm, ⟨8, _⟩ => ⟨S5, .i32⟩
  | .hbm, ⟨9, _⟩ => ⟨S1x5, .i32⟩
  | .hbm, ⟨10, _⟩ => ⟨S4096x5, .i32⟩
  | .hbm, ⟨11, _⟩ => ⟨S4096x5, .i32⟩
  | .hbm, ⟨12, _⟩ => ⟨S4096x5, .i32⟩
  | .hbm, ⟨13, _⟩ => ⟨S_, .i32⟩
  | .hbm, ⟨14, _⟩ => ⟨S4096x5, .i32⟩
  | .hbm, ⟨15, _⟩ => ⟨S4096x5, .i1⟩
  | .hbm, ⟨16, _⟩ => ⟨S_, .i32⟩
  | .hbm, ⟨17, _⟩ => ⟨S4096x5, .i32⟩
  | .hbm, ⟨18, _⟩ => ⟨S4096x5, .i32⟩
  | .hbm, ⟨19, _⟩ => ⟨S4096x5, .i32⟩
  | .hbm, ⟨20, _⟩ => ⟨S4096x5x1, .i32⟩
  | .hbm, ⟨21, _⟩ => ⟨S8x1x4096x5x96x2, .f32⟩
  | .hbm, ⟨22, _⟩ => ⟨S8x1x4096x96x5x2, .f32⟩
  | .hbm, ⟨23, _⟩ => ⟨S8x1x5x4096x96x2, .f32⟩
  | .hbm, ⟨24, _⟩ => ⟨S8x1x4096x96x5x2, .f32⟩
  | .hbm, ⟨25, _⟩ => ⟨S8x1x4096x96x5x1, .f32⟩
  | .hbm, ⟨26, _⟩ => ⟨S8x1x4096x96x5, .f32⟩
  | .hbm, ⟨27, _⟩ => ⟨S8x1x4096x96x5x1, .f32⟩
  | .hbm, ⟨28, _⟩ => ⟨S8x1x4096x96x5, .f32⟩
  | .hbm, ⟨29, _⟩ => ⟨S8x1x4096x96x5x1, .f32⟩
  | .hbm, ⟨30, _⟩ => ⟨S8x1x4096x96x5, .f32⟩
  | .hbm, ⟨31, _⟩ => ⟨S8x1x4096x96x5x1, .f32⟩
  | .hbm, ⟨32, _⟩ => ⟨S8x1x4096x96x5, .f32⟩
  | .hbm, ⟨33, _⟩ => ⟨S8x1x4096x96x5, .f32⟩
  | .hbm, ⟨34, _⟩ => ⟨S8x1x4096x96x5, .f32⟩
  | .hbm, ⟨35, _⟩ => ⟨S8x1x4096x96x5, .f32⟩
  | .hbm, ⟨36, _⟩ => ⟨S_, .f32⟩
  | .hbm, ⟨37, _⟩ => ⟨S8x1x4096x96, .f32⟩
  | .hbm, ⟨38, _⟩ => ⟨S8x1x4096x96x5, .f32⟩
  | .hbm, ⟨39, _⟩ => ⟨S8x1x4096x96x5, .f32⟩
  | .hbm, ⟨40, _⟩ => ⟨S8x1x4096x96x5, .f32⟩
  | .hbm, ⟨41, _⟩ => ⟨S_, .f32⟩
  | .hbm, ⟨42, _⟩ => ⟨S8x1x4096x96, .f32⟩
  | .hbm, ⟨43, _⟩ => ⟨S8x1x4096x96x1, .f32⟩
  | .hbm, ⟨44, _⟩ => ⟨S8x1x4096x96x1, .f32⟩
  | .hbm, ⟨45, _⟩ => ⟨S8x1x4096x96x2, .f32⟩
  | .hbm, ⟨46, _⟩ => ⟨S8x1x4096x385x2, .f32⟩
  | .hbm, ⟨47, _⟩ => ⟨S8x1x4096x481x2, .f32⟩
  | _, _ => ⟨S8x1x4096x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]

class Facts₀ : Prop where
  slices_S8x1x4096x481x2_S8x1x4096x96x2_0_0_0_0_0 : S8x1x4096x481x2.Slices ![0, 0, 0, 0, 0] S8x1x4096x96x2
  pads_S8x1x4096x96x2_S8x1x4100x96x2_000_000_400_000_000 : S8x1x4096x96x2.Pads (![0, 0, 4, 0, 0] : Fin 5 → Nat) ![0, 0, 0, 0, 0] ![0, 0, 0, 0, 0] S8x1x4100x96x2
  h_S_ : 0 < S_.numel
  bcast_S4096_S4096x1_0 : S4096.BroadcastsInDim S4096x1 (![0] : Fin 1 → Fin S4096x1.rank)
  bcast_S5_S1x5_1 : S5.BroadcastsInDim S1x5 (![1] : Fin 1 → Fin S1x5.rank)
  bcast_S4096x1_S4096x5_0_1 : S4096x1.BroadcastsInDim S4096x5 (![0, 1] : Fin 2 → Fin S4096x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  bcast_S4096x5_S4096x5x1_0_1 : S4096x5.BroadcastsInDim S4096x5x1 (![0, 1] : Fin 2 → Fin S4096x5x1.rank)
  transposes_S8x1x4096x5x96x2_S8x1x4096x96x5x2_0_1_2_4_3_5 : S8x1x4096x5x96x2.Transposes [0, 1, 2, 4, 3, 5] S8x1x4096x96x5x2
  bcast_S8x5x4096x96x2_S8x1x5x4096x96x2_0_2_3_4_5 : S8x5x4096x96x2.BroadcastsInDim S8x1x5x4096x96x2 (![0, 2, 3, 4, 5] : Fin 5 → Fin S8x1x5x4096x96x2.rank)
  transposes_S8x1x5x4096x96x2_S8x1x4096x96x5x2_0_1_3_4_2_5 : S8x1x5x4096x96x2.Transposes [0, 1, 3, 4, 2, 5] S8x1x4096x96x5x2
  slices_S8x1x4096x96x5x2_S8x1x4096x96x5x1_0_0_0_0_0_0 : S8x1x4096x96x5x2.Slices ![0, 0, 0, 0, 0, 0] S8x1x4096x96x5x1
  shapeCasts_S8x1x4096x96x5x1_S8x1x4096x96x5 : S8x1x4096x96x5x1.ShapeCasts S8x1x4096x96x5
  slices_S8x1x4096x96x5x2_S8x1x4096x96x5x1_0_0_0_0_0_1 : S8x1x4096x96x5x2.Slices ![0, 0, 0, 0, 0, 1] S8x1x4096x96x5x1
  reducesTo_S8x1x4096x96x5_S8x1x4096x96_d4 : S8x1x4096x96x5.ReducesTo [4] S8x1x4096x96
  bcast_S8x1x4096x96_S8x1x4096x96x1_0_1_2_3 : S8x1x4096x96.BroadcastsInDim S8x1x4096x96x1 (![0, 1, 2, 3] : Fin 4 → Fin S8x1x4096x96x1.rank)
  concatenates_S8x1x4096x96x1_S8x1x4096x96x1_S8x1x4096x96x2_d4 : Shape.Concatenates [S8x1x4096x96x1, S8x1x4096x96x1] S8x1x4096x96x2 4
  slices_S8x1x4096x481x2_S8x1x4096x385x2_0_0_0_96_0 : S8x1x4096x481x2.Slices ![0, 0, 0, 96, 0] S8x1x4096x385x2
  concatenates_S8x1x4096x96x2_S8x1x4096x385x2_S8x1x4096x481x2_d3 : Shape.Concatenates [S8x1x4096x96x2, S8x1x4096x385x2] S8x1x4096x481x2 3
  gather_S8x1x4100x96x2_S4096x5x1_S8x1x4096x5x96x2_0145_2_n_n_2_2_811962_wf : GatherDims.WF S8x1x4100x96x2 S4096x5x1 S8x1x4096x5x96x2 [0, 1, 4, 5] [2] [] [2] [] 2 ![8, 1, 1, 96, 2]

variable [Facts₀]

def gather_S8x1x4100x96x2_S4096x5x1_S8x1x4096x5x96x2_0145_2_n_n_2_2_811962 : GatherDims S8x1x4100x96x2 S4096x5x1 S8x1x4096x5x96x2 where
  offsetDims := [0, 1, 4, 5]
  collapsedSliceDims := [2]
  operandBatchingDims := []
  startIndicesBatchingDims := []
  startIndexMap := [2]
  indexVectorDim := 2
  sliceSizes := ![8, 1, 1, 96, 2]
  wf := gather_S8x1x4100x96x2_S4096x5x1_S8x1x4096x5x96x2_0145_2_n_n_2_2_811962_wf

class Facts : Prop extends Facts₀ where

variable [Facts]
-- ==== Proof.FirSpec.lean ====
/-
  What both programs compute on the low band, as one function of the two argument arrays.

  The spectrogram `x` is indexed [batch, 1, time, frequency, part] (part 0 real, part 1 imaginary) and the
  coefficients `w` [batch, tap, time, frequency, part]. On the 96 lowest frequencies the result at time `t` is the
  causal five-tap complex filter

      y(t) = ∑ o < 5,  x(t + o - 4) · w(o, t)        (complex product, x = 0 before time 0),

  that is, with x = xr + i·xi and w = wr + i·wi,

      re y(t) = ∑ o, (xr(t+o-4) · wr(o,t) - xi(t+o-4) · wi(o,t)),
      im y(t) = ∑ o, (xr(t+o-4) · wi(o,t) + xi(t+o-4) · wr(o,t)).

  The frequencies from 96 up pass through unchanged; both programs obtain them by the same slice of `x`, so only
  the low band is specified here.

  One program adds the five complex products onto a zero accumulator one term at a time, the real part as
  ((acc + xr·wr) - xi·wi); the other sums the five differences. On the extended reals a difference is the sum with
  the negative, and addition is associative and commutative, so the two groupings agree with no finiteness
  assumption (`acc_sub_eq_sum`, `acc_add_eq_sum`).
-/
import Idealize.ShloMosaic.PureOps.Ideal
import Idealize.ShloMosaic.Lib.ValueIdx

noncomputable section

open scoped BigOperators

namespace Cert.Fir

open Idealize.ShloMosaic Idealize.ShloMosaic.ValueIdx

/-- The spectrogram's shape: [batch, 1, time, frequency, part]. -/
abbrev SX : Shape := ⟨5, ![8, 1, 4096, 481, 2]⟩
/-- The coefficients' shape: [batch, tap, time, frequency, part]. -/
abbrev SW : Shape := ⟨5, ![8, 5, 4096, 96, 2]⟩
/-- The low band's shape: [batch, 1, time, frequency, part]. -/
abbrev SL : Shape := ⟨5, ![8, 1, 4096, 96, 2]⟩

/-- Part `p` of the low-band sample that tap `o` meets at time `t`: the one at time `t + o - 4`, zero before
    time 0. -/
def tap (x : SX.Idx → EReal) (b : Fin 8) (t : Fin 4096) (f : Fin 96) (p : Fin 2) (o : Fin 5) : EReal :=
  if h : 4 ≤ t.val + o.val then
    x (ix5 b (0 : Fin 1) (⟨t.val + o.val - 4, by have := t.isLt; have := o.isLt; omega⟩ : Fin 4096)
      (⟨f.val, by have := f.isLt; omega⟩ : Fin 481) p)
  else 0

/-- Part `p` of tap `o`'s coefficient at time `t`. -/
def coef (w : SW.Idx → EReal) (b : Fin 8) (t : Fin 4096) (f : Fin 96) (p : Fin 2) (o : Fin 5) : EReal :=
  w (ix5 b o t f p)

/-- The real part of the filtered sample. -/
def filteredRe (x : SX.Idx → EReal) (w : SW.Idx → EReal) (b : Fin 8) (t : Fin 4096) (f : Fin 96) : EReal :=
  ∑ o : Fin 5, (tap x b t f 0 o * coef w b t f 0 o - tap x b t f 1 o * coef w b t f 1 o)

/-- The imaginary part of the filtered sample. -/
def filteredIm (x : SX.Idx → EReal) (w : SW.Idx → EReal) (b : Fin 8) (t : Fin 4096) (f : Fin 96) : EReal :=
  ∑ o : Fin 5, (tap x b t f 0 o * coef w b t f 1 o + tap x b t f 1 o * coef w b t f 0 o)

/-- The low band of the result: the filtered sample's real part at part 0, its imaginary part at part 1. -/
def low (x : SX.Idx → EReal) (w : SW.Idx → EReal) : SL.Idx → EReal := fun i =>
  if (i 4).val = 0 then filteredRe x w (i 0) (i 2) (i 3) else filteredIm x w (i 0) (i 2) (i 3)

/-- Five differences added in turn onto zero, each as "add the first term, then subtract the second", are the
    sum of the five differences: a difference is a sum with the negative, and sums may be regrouped. -/
theorem acc_sub_eq_sum (a b : Fin 5 → EReal) :
    0 + a 0 - b 0 + a 1 - b 1 + a 2 - b 2 + a 3 - b 3 + a 4 - b 4 = ∑ o : Fin 5, (a o - b o) := by
  rw [Fin.sum_univ_five]
  simp only [sub_eq_add_neg, zero_add]
  ac_rfl

/-- Five sums added in turn onto zero, one term at a time, are the sum of the five sums. -/
theorem acc_add_eq_sum (a b : Fin 5 → EReal) :
    0 + a 0 + b 0 + a 1 + b 1 + a 2 + b 2 + a 3 + b 3 + a 4 + b 4 = ∑ o : Fin 5, (a o + b o) := by
  rw [Fin.sum_univ_five]
  simp only [zero_add]
  ac_rfl

end Cert.Fir

end
-- ==== Proof.FirWindow.lean ====
/-
  The extended time window of one block.

  To filter the 1024 time steps of a block the body first lays out 1028 rows: the last four time steps of the
  block before (the history, zero at the first block of a batch) on rows 0 to 3, and the block's own 1024 time
  steps on rows 4 to 1027. Tap `o` at time step `r` of the block then reads row `r + o`: the sample
  `4 - o` steps earlier. The 1028 rows are written by two stores, so what a later load reads is the canonical
  contents of those two stores; here that is read at one row and one frequency.
-/
import Idealize.ShloMosaic.Lib.Pipeline.Value
import Idealize.ShloMosaic.Lib.ValueIdx

noncomputable section

namespace Cert.Fir

open Idealize.ShloMosaic Idealize.ShloMosaic.ValueIdx

/-- The extended window's shape: 1028 rows of 96 frequencies. -/
abbrev SExt : Shape := ⟨2, ![1028, 96]⟩
/-- One block's shape: 1024 time steps of 96 frequencies. -/
abbrev SBlk : Shape := ⟨2, ![1024, 96]⟩
/-- The history's shape: 4 time steps of 96 frequencies. -/
abbrev SHist : Shape := ⟨2, ![4, 96]⟩

variable {Val : EltTy → Type} {e : EltTy}

/-- Two stores, the later one first: under the later store's rectangle the contents are its payload. -/
theorem canon_pair_later [∀ e, Nonempty (Val e)] {s : Shape} (r₁ r₂ : Rect s) (w₁ : r₁.shape.Idx → Val e)
    (w₂ : r₂.shape.Idx → Val e) (x : r₁.shape.Idx) :
    View.canon [(⟨r₁, w₁⟩ : View.Piece Val s e), (⟨r₂, w₂⟩ : View.Piece Val s e)] (r₁.emb x) = w₁ x :=
  View.canon_cons_emb r₁ w₁ _ x

/-- Two stores, the later one first: under the earlier store's rectangle and off the later one's, the contents are
    the earlier store's payload. -/
theorem canon_pair_earlier [∀ e, Nonempty (Val e)] {s : Shape} (r₁ r₂ : Rect s) (w₁ : r₁.shape.Idx → Val e)
    (w₂ : r₂.shape.Idx → Val e) (x : r₂.shape.Idx) (h : r₂.emb x ∉ r₁.set) :
    View.canon [(⟨r₁, w₁⟩ : View.Piece Val s e), (⟨r₂, w₂⟩ : View.Piece Val s e)] (r₂.emb x) = w₂ x := by
  rw [View.canon_cons_of_not_mem (⟨r₁, w₁⟩ : View.Piece Val s e) [(⟨r₂, w₂⟩ : View.Piece Val s e)] h]
  exact View.canon_cons_emb r₂ w₂ [] x

/-- The extended window at row `q`: the history on rows 0 to 3, the block from row 4 on. -/
def ext (H : SHist.Idx → Val e) (P : SBlk.Idx → Val e) (q : Fin 1028) (f : Fin 96) : Val e :=
  if h : q.val < 4 then H (ix2 (⟨q.val, h⟩ : Fin 4) f)
  else P (ix2 (⟨q.val - 4, by have := q.isLt; omega⟩ : Fin 1024) f)

/-- The two stores that fill the extended window — the history through rows 0 to 3, then the block through rows 4
    to 1027 — leave `ext` at every row and frequency. -/
theorem canon_ext [∀ e, Nonempty (Val e)]
    (inb4 : ∀ a, (![4, 0] : Fin 2 → Nat) a + SBlk.size a ≤ SExt.size a)
    (inb0 : ∀ a, (![0, 0] : Fin 2 → Nat) a + SHist.size a ≤ SExt.size a)
    (H : SHist.Idx → Val e) (P : SBlk.Idx → Val e) (q : Fin 1028) (f : Fin 96) :
    View.canon [(⟨Rect.unit (s := SExt) ![4, 0] SBlk.size inb4, P⟩ : View.Piece Val SExt e),
      (⟨Rect.unit (s := SExt) ![0, 0] SHist.size inb0, H⟩ : View.Piece Val SExt e)] (ix2 q f) = ext H P q f := by
  unfold ext
  by_cases h : q.val < 4
  · rw [dif_pos h]
    have he : (ix2 q f : SExt.Idx) = (Rect.unit (s := SExt) ![0, 0] SHist.size inb0).emb (ix2 (⟨q.val, h⟩ : Fin 4) f) := by
      funext a; apply Fin.ext
      match a with
      | ⟨0, _⟩ => show q.val = 0 + 1 * q.val; omega
      | ⟨1, _⟩ => show f.val = 0 + 1 * f.val; omega
    have hnot : (ix2 q f : SExt.Idx) ∉ (Rect.unit (s := SExt) ![4, 0] SBlk.size inb4).set := by
      rw [Rect.mem_set_unit]
      intro hm
      have h0 : 4 ≤ q.val := (hm 0).1
      omega
    rw [he] at hnot ⊢
    exact canon_pair_earlier (Rect.unit (s := SExt) ![4, 0] SBlk.size inb4) (Rect.unit (s := SExt) ![0, 0] SHist.size inb0)
      P H (ix2 (⟨q.val, h⟩ : Fin 4) f) hnot
  · rw [dif_neg h]
    have he : (ix2 q f : SExt.Idx)
        = (Rect.unit (s := SExt) ![4, 0] SBlk.size inb4).emb (ix2 (⟨q.val - 4, by have := q.isLt; omega⟩ : Fin 1024) f) := by
      funext a; apply Fin.ext
      match a with
      | ⟨0, _⟩ => show q.val = 4 + 1 * (q.val - 4); omega
      | ⟨1, _⟩ => show f.val = 0 + 1 * f.val; omega
    rw [he]
    exact canon_pair_later (Rect.unit (s := SExt) ![4, 0] SBlk.size inb4) (Rect.unit (s := SExt) ![0, 0] SHist.size inb0)
      P H (ix2 (⟨q.val - 4, by have := q.isLt; omega⟩ : Fin 1024) f)

end Cert.Fir

end
-- ==== Proof.FirPoint.lean ====
/-
  One grid point of the filter, read at one time step and one frequency.

  At a grid point the body holds one block of the low band's real parts and one of its imaginary parts
  (1024 time steps by 96 frequencies each), the five taps' coefficients for those time steps (real and imaginary),
  and the history: the last four time steps of the previous block (zeros at the first block of a batch). It lays
  the history and the block out as the 1028-row extended window (`Cert.Fir.ext`) and accumulates, tap by tap,

      re += E_re(r + o) · W_re(o, r) - E_im(r + o) · W_im(o, r),
      im += E_re(r + o) · W_im(o, r) + E_im(r + o) · W_re(o, r),

  from zero. Read at (r, f) the two accumulated values are the sums over the five taps; and what the body leaves
  in the history for the next point is rows 1020 to 1023 of the block.
-/
import proofs.«130019_j55765855371924_1_alg».proof.Proof.Gen.KernelIdeal.Frame
import proofs.«130019_j55765855371924_1_alg».proof.Proof.FirSpec
import proofs.«130019_j55765855371924_1_alg».proof.Proof.FirWindow
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.Tactic
open Idealize.ShloMosaic.ValueIdx

namespace Cert.KernelIdeal.FirValue

open Cert.KernelIdeal Cert.KernelIdeal.Gen Cert.Fir

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The body's layout operations at an index -/

/-- Tap 0's plane of a coefficient block, read at a time step and a frequency. -/
theorem pay10_apply (W : FVec Ideal S5x1024x96 .f32) (r : Fin 1024) (f : Fin 96) :
    k0_pay10 W (ix2 r f) = W (ix3 (0 : Fin 5) r f) := by
  unfold k0_pay10
  refine (shapeCast_1ab_ab_apply _ _ r f).trans ?_
  exact extractStridedSlice_apply _ W _ _ _ (fun a => match a with
    | ⟨0, _⟩ => by show (0 : Nat) = 0 + 0; rfl
    | ⟨1, _⟩ => by show r.val = 0 + r.val; omega
    | ⟨2, _⟩ => by show f.val = 0 + f.val; omega)

/-- Tap 1's plane of a coefficient block, read at a time step and a frequency. -/
theorem pay12_apply (W : FVec Ideal S5x1024x96 .f32) (r : Fin 1024) (f : Fin 96) :
    k0_pay12 W (ix2 r f) = W (ix3 (1 : Fin 5) r f) := by
  unfold k0_pay12
  refine (shapeCast_1ab_ab_apply _ _ r f).trans ?_
  exact extractStridedSlice_apply _ W _ _ _ (fun a => match a with
    | ⟨0, _⟩ => by show (1 : Nat) = 1 + 0; rfl
    | ⟨1, _⟩ => by show r.val = 0 + r.val; omega
    | ⟨2, _⟩ => by show f.val = 0 + f.val; omega)

/-- Tap 2's plane of a coefficient block, read at a time step and a frequency. -/
theorem pay14_apply (W : FVec Ideal S5x1024x96 .f32) (r : Fin 1024) (f : Fin 96) :
    k0_pay14 W (ix2 r f) = W (ix3 (2 : Fin 5) r f) := by
  unfold k0_pay14
  refine (shapeCast_1ab_ab_apply _ _ r f).trans ?_
  exact extractStridedSlice_apply _ W _ _ _ (fun a => match a with
    | ⟨0, _⟩ => by show (2 : Nat) = 2 + 0; rfl
    | ⟨1, _⟩ => by show r.val = 0 + r.val; omega
    | ⟨2, _⟩ => by show f.val = 0 + f.val; omega)

/-- Tap 3's plane of a coefficient block, read at a time step and a frequency. -/
theorem pay18_apply (W : FVec Ideal S5x1024x96 .f32) (r : Fin 1024) (f : Fin 96) :
    k0_pay18 W (ix2 r f) = W (ix3 (3 : Fin 5) r f) := by
  unfold k0_pay18
  refine (shapeCast_1ab_ab_apply _ _ r f).trans ?_
  exact extractStridedSlice_apply _ W _ _ _ (fun a => match a with
    | ⟨0, _⟩ => by show (3 : Nat) = 3 + 0; rfl
    | ⟨1, _⟩ => by show r.val = 0 + r.val; omega
    | ⟨2, _⟩ => by show f.val = 0 + f.val; omega)

/-- Tap 4's plane of a coefficient block, read at a time step and a frequency. -/
theorem pay20_apply (W : FVec Ideal S5x1024x96 .f32) (r : Fin 1024) (f : Fin 96) :
    k0_pay20 W (ix2 r f) = W (ix3 (4 : Fin 5) r f) := by
  unfold k0_pay20
  refine (shapeCast_1ab_ab_apply _ _ r f).trans ?_
  exact extractStridedSlice_apply _ W _ _ _ (fun a => match a with
    | ⟨0, _⟩ => by show (4 : Nat) = 4 + 0; rfl
    | ⟨1, _⟩ => by show r.val = 0 + r.val; omega
    | ⟨2, _⟩ => by show f.val = 0 + f.val; omega)

/-- Tap 0's plane of a coefficient block, read at a time step and a frequency. -/
theorem pay11_apply (W : FVec Ideal S5x1024x96 .f32) (r : Fin 1024) (f : Fin 96) :
    k0_pay11 W (ix2 r f) = W (ix3 (0 : Fin 5) r f) := by
  unfold k0_pay11
  refine (shapeCast_1ab_ab_apply _ _ r f).trans ?_
  exact extractStridedSlice_apply _ W _ _ _ (fun a => match a with
    | ⟨0, _⟩ => by show (0 : Nat) = 0 + 0; rfl
    | ⟨1, _⟩ => by show r.val = 0 + r.val; omega
    | ⟨2, _⟩ => by show f.val = 0 + f.val; omega)

/-- Tap 1's plane of a coefficient block, read at a time step and a frequency. -/
theorem pay13_apply (W : FVec Ideal S5x1024x96 .f32) (r : Fin 1024) (f : Fin 96) :
    k0_pay13 W (ix2 r f) = W (ix3 (1 : Fin 5) r f) := by
  unfold k0_pay13
  refine (shapeCast_1ab_ab_apply _ _ r f).trans ?_
  exact extractStridedSlice_apply _ W _ _ _ (fun a => match a with
    | ⟨0, _⟩ => by show (1 : Nat) = 1 + 0; rfl
    | ⟨1, _⟩ => by show r.val = 0 + r.val; omega
    | ⟨2, _⟩ => by show f.val = 0 + f.val; omega)

/-- Tap 2's plane of a coefficient block, read at a time step and a frequency. -/
theorem pay15_apply (W : FVec Ideal S5x1024x96 .f32) (r : Fin 1024) (f : Fin 96) :
    k0_pay15 W (ix2 r f) = W (ix3 (2 : Fin 5) r f) := by
  unfold k0_pay15
  refine (shapeCast_1ab_ab_apply _ _ r f).trans ?_
  exact extractStridedSlice_apply _ W _ _ _ (fun a => match a with
    | ⟨0, _⟩ => by show (2 : Nat) = 2 + 0; rfl
    | ⟨1, _⟩ => by show r.val = 0 + r.val; omega
    | ⟨2, _⟩ => by show f.val = 0 + f.val; omega)

/-- Tap 3's plane of a coefficient block, read at a time step and a frequency. -/
theorem pay19_apply (W : FVec Ideal S5x1024x96 .f32) (r : Fin 1024) (f : Fin 96) :
    k0_pay19 W (ix2 r f) = W (ix3 (3 : Fin 5) r f) := by
  unfold k0_pay19
  refine (shapeCast_1ab_ab_apply _ _ r f).trans ?_
  exact extractStridedSlice_apply _ W _ _ _ (fun a => match a with
    | ⟨0, _⟩ => by show (3 : Nat) = 3 + 0; rfl
    | ⟨1, _⟩ => by show r.val = 0 + r.val; omega
    | ⟨2, _⟩ => by show f.val = 0 + f.val; omega)

/-- Tap 4's plane of a coefficient block, read at a time step and a frequency. -/
theorem pay21_apply (W : FVec Ideal S5x1024x96 .f32) (r : Fin 1024) (f : Fin 96) :
    k0_pay21 W (ix2 r f) = W (ix3 (4 : Fin 5) r f) := by
  unfold k0_pay21
  refine (shapeCast_1ab_ab_apply _ _ r f).trans ?_
  exact extractStridedSlice_apply _ W _ _ _ (fun a => match a with
    | ⟨0, _⟩ => by show (4 : Nat) = 4 + 0; rfl
    | ⟨1, _⟩ => by show r.val = 0 + r.val; omega
    | ⟨2, _⟩ => by show f.val = 0 + f.val; omega)

/-- A coefficient block [1, 5, 1024, 96] seen as [5, 1024, 96]. -/
theorem pay8_apply (x : Vec Ideal S1x5x1024x96 .f32) (o : Fin 5) (r : Fin 1024) (f : Fin 96) :
    k0_pay8 x (ix3 o r f) = x (ix4 (0 : Fin 1) o r f) := by
  unfold k0_pay8
  exact shapeCast_1abc_abc_apply _ _ o r f

theorem pay9_apply (x : Vec Ideal S1x5x1024x96 .f32) (o : Fin 5) (r : Fin 1024) (f : Fin 96) :
    k0_pay9 x (ix3 o r f) = x (ix4 (0 : Fin 1) o r f) := by
  unfold k0_pay9
  exact shapeCast_1abc_abc_apply _ _ o r f

/-- A sample block [1, 1024, 96] seen as [1024, 96]. -/
theorem pay5_apply (x : Vec Ideal S1x1024x96 .f32) (r : Fin 1024) (f : Fin 96) :
    k0_pay5 x (ix2 r f) = x (ix3 (0 : Fin 1) r f) := by
  unfold k0_pay5
  exact (congrFun (shapeCast_self _ _) _).trans (shapeCast_1ab_ab_apply _ _ r f)

theorem pay7_apply (x : Vec Ideal S1x1024x96 .f32) (r : Fin 1024) (f : Fin 96) :
    k0_pay7 x (ix2 r f) = x (ix3 (0 : Fin 1) r f) := by
  unfold k0_pay7
  exact (congrFun (shapeCast_self _ _) _).trans (shapeCast_1ab_ab_apply _ _ r f)

/-- The history passes into the extended window as it is. -/
theorem pay4_eq (v : Vec Ideal S4x96 .f32) : k0_pay4 v = v := by
  unfold k0_pay4
  exact shapeCast_self _ _

theorem pay6_eq (v : Vec Ideal S4x96 .f32) : k0_pay6 v = v := by
  unfold k0_pay6
  exact shapeCast_self _ _

/-- The history a batch starts from is zero. -/
theorem pay2_apply (j : S4x96.Idx) : k0_pay2 (F := Ideal) j = 0 := by
  unfold k0_pay2
  refine (congrFun (shapeCast_self _ _) j).trans ?_
  show Ideal.ofBits .f32 0x00000000#32 = 0
  exact Ideal.ofBits_zero_f32

theorem pay3_apply (j : S4x96.Idx) : k0_pay3 (F := Ideal) j = 0 := by
  unfold k0_pay3
  refine (congrFun (shapeCast_self _ _) j).trans ?_
  show Ideal.ofBits .f32 0x00000000#32 = 0
  exact Ideal.ofBits_zero_f32

/-- The four rows kept for the next point, [1, 4, 96] seen as [4, 96]. -/
theorem pay24_apply (v : Vec Ideal S1x4x96 .f32) (q : Fin 4) (f : Fin 96) :
    k0_pay24 v (ix2 q f) = v (ix3 (0 : Fin 1) q f) := by
  unfold k0_pay24
  exact (congrFun (shapeCast_self _ _) _).trans (shapeCast_1ab_ab_apply _ _ q f)

theorem pay1_apply (v : Vec Ideal S1x4x96 .f32) (q : Fin 4) (f : Fin 96) :
    k0_pay1 v (ix2 q f) = v (ix3 (0 : Fin 1) q f) := by
  unfold k0_pay1
  exact (congrFun (shapeCast_self _ _) _).trans (shapeCast_1ab_ab_apply _ _ q f)

/-! ## A load from the extended window -/

/-- Tap `o`'s rows of the extended window are inside it. -/
theorem tapRows_inb (o : Fin 5) : ∀ a, (![o.val, 0] : Fin 2 → Nat) a + S1024x96.size a ≤ S1028x96.size a := fun a =>
  match a with
  | ⟨0, _⟩ => by show o.val + 1024 ≤ 1028; have := o.isLt; omega
  | ⟨1, _⟩ => by show 0 + 96 ≤ 96; omega

/-- Tap `o`'s load from the extended window, at time step `r`: row `r + o`. -/
theorem load_ext {κ : Kind} {sp : Space} (v : View sig κ sp S1028x96 .f32) (H : Vec Ideal S4x96 .f32) (P : Vec Ideal S1024x96 .f32)
    (o : Fin 5) (inbo : ∀ a, (![o.val, 0] : Fin 2 → Nat) a + S1024x96.size a ≤ S1028x96.size a)
    (r : Fin 1024) (f : Fin 96) :
    v.readCov [(⟨Rect.unit (s := S1028x96) ![4, 0] S1024x96.size inb_S1028x96_S1024x96_4_0, P⟩ : View.Piece (Elt Ideal) S1028x96 .f32),
        (⟨Rect.unit (s := S1028x96) ![0, 0] S4x96.size inb_S1028x96_S4x96_0_0, H⟩ : View.Piece (Elt Ideal) S1028x96 .f32)]
      (Rect.unit (s := S1028x96) ![o.val, 0] S1024x96.size inbo).toLoadRect (ix2 r f)
      = ext H P (⟨r.val + o.val, by have := r.isLt; have := o.isLt; omega⟩ : Fin 1028) f := by
  rw [View.readCov_eq_canon']
  have he : (Rect.unit (s := S1028x96) ![o.val, 0] S1024x96.size inbo).toLoadRect.idx (ix2 r f)
      = (ix2 (⟨r.val + o.val, by have := r.isLt; have := o.isLt; omega⟩ : Fin 1028) f : S1028x96.Idx) := by
    funext a; apply Fin.ext
    match a with
    | ⟨0, _⟩ => show o.val + 1 * r.val = r.val + o.val; omega
    | ⟨1, _⟩ => show 0 + 1 * f.val = f.val; omega
  show View.canon _ ((Rect.unit (s := S1028x96) ![o.val, 0] S1024x96.size inbo).toLoadRect.idx (ix2 r f)) = _
  rw [he]
  exact canon_ext inb_S1028x96_S1024x96_4_0 inb_S1028x96_S4x96_0_0 H P _ f

/-! ## The two accumulation chains -/

/-- The real part's chain, read at a time step and a frequency: the sum over the taps. -/
theorem re_chain (W0 W1 : FVec Ideal S5x1024x96 .f32) (E0 E1 : Fin 5 → Vec Ideal S1024x96 .f32) (r : Fin 1024) (f : Fin 96) :
    k0_pay22 W0 W1 (k0_pay16 W0 W1 (E0 0) (E1 0) (E0 1) (E1 1) (E0 2) (E1 2)) (E0 3) (E1 3) (E0 4) (E1 4) (ix3 (0 : Fin 1) r f)
      = ∑ o : Fin 5, (E0 o (ix2 r f) * W0 (ix3 o r f) - E1 o (ix2 r f) * W1 (ix3 o r f)) := by
  unfold k0_pay22
  refine (shapeCast_ab_1ab_apply _ _ (0 : Fin 1) r f).trans ?_
  show k0_pay16 W0 W1 (E0 0) (E1 0) (E0 1) (E1 1) (E0 2) (E1 2) (ix2 r f)
      + E0 3 (ix2 r f) * k0_pay18 W0 (ix2 r f) - E1 3 (ix2 r f) * k0_pay19 W1 (ix2 r f)
      + E0 4 (ix2 r f) * k0_pay20 W0 (ix2 r f) - E1 4 (ix2 r f) * k0_pay21 W1 (ix2 r f) = _
  rw [pay18_apply, pay19_apply, pay20_apply, pay21_apply]
  unfold k0_pay16
  show Ideal.ofBits .f32 0x00000000#32
      + E0 0 (ix2 r f) * k0_pay10 W0 (ix2 r f) - E1 0 (ix2 r f) * k0_pay11 W1 (ix2 r f)
      + E0 1 (ix2 r f) * k0_pay12 W0 (ix2 r f) - E1 1 (ix2 r f) * k0_pay13 W1 (ix2 r f)
      + E0 2 (ix2 r f) * k0_pay14 W0 (ix2 r f) - E1 2 (ix2 r f) * k0_pay15 W1 (ix2 r f)
      + E0 3 (ix2 r f) * W0 (ix3 (3 : Fin 5) r f) - E1 3 (ix2 r f) * W1 (ix3 (3 : Fin 5) r f)
      + E0 4 (ix2 r f) * W0 (ix3 (4 : Fin 5) r f) - E1 4 (ix2 r f) * W1 (ix3 (4 : Fin 5) r f) = _
  rw [pay10_apply, pay11_apply, pay12_apply, pay13_apply, pay14_apply, pay15_apply, Ideal.ofBits_zero_f32]
  exact acc_sub_eq_sum (fun o => E0 o (ix2 r f) * W0 (ix3 o r f)) (fun o => E1 o (ix2 r f) * W1 (ix3 o r f))

/-- The imaginary part's chain, read at a time step and a frequency: the sum over the taps. -/
theorem im_chain (W0 W1 : FVec Ideal S5x1024x96 .f32) (E0 E1 : Fin 5 → Vec Ideal S1024x96 .f32) (r : Fin 1024) (f : Fin 96) :
    k0_pay23 W0 W1 (k0_pay17 W0 W1 (E0 0) (E1 0) (E0 1) (E1 1) (E0 2) (E1 2)) (E0 3) (E1 3) (E0 4) (E1 4) (ix3 (0 : Fin 1) r f)
      = ∑ o : Fin 5, (E0 o (ix2 r f) * W1 (ix3 o r f) + E1 o (ix2 r f) * W0 (ix3 o r f)) := by
  unfold k0_pay23
  refine (shapeCast_ab_1ab_apply _ _ (0 : Fin 1) r f).trans ?_
  show k0_pay17 W0 W1 (E0 0) (E1 0) (E0 1) (E1 1) (E0 2) (E1 2) (ix2 r f)
      + E0 3 (ix2 r f) * k0_pay19 W1 (ix2 r f) + E1 3 (ix2 r f) * k0_pay18 W0 (ix2 r f)
      + E0 4 (ix2 r f) * k0_pay21 W1 (ix2 r f) + E1 4 (ix2 r f) * k0_pay20 W0 (ix2 r f) = _
  rw [pay18_apply, pay19_apply, pay20_apply, pay21_apply]
  unfold k0_pay17
  show Ideal.ofBits .f32 0x00000000#32
      + E0 0 (ix2 r f) * k0_pay11 W1 (ix2 r f) + E1 0 (ix2 r f) * k0_pay10 W0 (ix2 r f)
      + E0 1 (ix2 r f) * k0_pay13 W1 (ix2 r f) + E1 1 (ix2 r f) * k0_pay12 W0 (ix2 r f)
      + E0 2 (ix2 r f) * k0_pay15 W1 (ix2 r f) + E1 2 (ix2 r f) * k0_pay14 W0 (ix2 r f)
      + E0 3 (ix2 r f) * W1 (ix3 (3 : Fin 5) r f) + E1 3 (ix2 r f) * W0 (ix3 (3 : Fin 5) r f)
      + E0 4 (ix2 r f) * W1 (ix3 (4 : Fin 5) r f) + E1 4 (ix2 r f) * W0 (ix3 (4 : Fin 5) r f) = _
  rw [pay10_apply, pay11_apply, pay12_apply, pay13_apply, pay14_apply, pay15_apply, Ideal.ofBits_zero_f32]
  exact acc_add_eq_sum (fun o => E0 o (ix2 r f) * W1 (ix3 o r f)) (fun o => E1 o (ix2 r f) * W0 (ix3 o r f))

/-! ## What each case leaves in the two output blocks -/

/-- Case B (a later block of a batch: the history is what the point before left): the real part's block at a time step and a frequency. -/
theorem out_B_re (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : ¬cond0_0 i)
    (x0 : Vec Ideal S1x1024x96 .f32) (x1 : Vec Ideal S1x1024x96 .f32) (x2 : Vec Ideal S1x5x1024x96 .f32) (x3 : Vec Ideal S1x5x1024x96 .f32) (xs0 xs1 : Vec Ideal S4x96 .f32) (r : Fin 1024) (f : Fin 96) :
    out0_B_4 (F := Ideal) c i a2 h2 a3 h3 a4 h4 a5 h5 a6 h6 a7 h7 a8 h8 a9 h9 a10 h10 a11 h11 hc x0 x1 x2 x3 xs0 xs1 (ix3 (0 : Fin 1) r f)
      = ∑ o : Fin 5, (ext (Val := Elt Ideal) (e := .f32) xs0 (k0_pay5 x0) (⟨r.val + o.val, by have := r.isLt; have := o.isLt; omega⟩ : Fin 1028) f * k0_pay8 x2 (ix3 o r f)
          - ext (Val := Elt Ideal) (e := .f32) xs1 (k0_pay7 x1) (⟨r.val + o.val, by have := r.isLt; have := o.isLt; omega⟩ : Fin 1028) f * k0_pay9 x3 (ix3 o r f)) := by
  unfold out0_B_4
  rw [View.read_writes_eq_canon _ _ _ (cover0_B_4 c i a2 h2 a3 h3 a4 h4 a5 h5 a6 h6 a7 h7 a8 h8 a9 h9 a10 h10 a11 h11 hc x0 x1 x2 x3 xs0 xs1)]
  unfold kernelRun0_B
  dsimp only
  sl_unfold_words
  rw [View.canon_unit_zero hz3]
  simp only [View.readAt_eq_ld, h2.read_unread, h3.read_unread, h4.read_unread, h5.read_unread, h8.read_unread, h9.read_unread, View.ld_unit_zero (S := S4x96) hz2,
    View.ld_unit_zero (S := S1x1024x96) hz3, View.ld_unit_zero (S := S1x5x1024x96) hz4, pay4_eq, pay6_eq]
  refine (re_chain (k0_pay8 x2) (k0_pay9 x3)
    (fun o => a10.view.readCov [(⟨Rect.unit (s := S1028x96) ![4, 0] S1024x96.size inb_S1028x96_S1024x96_4_0, k0_pay5 x0⟩ : View.Piece (Elt Ideal) S1028x96 .f32),
        (⟨Rect.unit (s := S1028x96) ![0, 0] S4x96.size inb_S1028x96_S4x96_0_0, xs0⟩ : View.Piece (Elt Ideal) S1028x96 .f32)] (Rect.unit (s := S1028x96) ![o.val, 0] S1024x96.size (tapRows_inb o)).toLoadRect)
    (fun o => a11.view.readCov [(⟨Rect.unit (s := S1028x96) ![4, 0] S1024x96.size inb_S1028x96_S1024x96_4_0, k0_pay7 x1⟩ : View.Piece (Elt Ideal) S1028x96 .f32),
        (⟨Rect.unit (s := S1028x96) ![0, 0] S4x96.size inb_S1028x96_S4x96_0_0, xs1⟩ : View.Piece (Elt Ideal) S1028x96 .f32)] (Rect.unit (s := S1028x96) ![o.val, 0] S1024x96.size (tapRows_inb o)).toLoadRect) r f).trans ?_
  refine Finset.sum_congr rfl fun o _ => ?_
  dsimp only
  rw [load_ext, load_ext]

/-- Case B (a later block of a batch: the history is what the point before left): the imaginary part's block at a time step and a frequency. -/
theorem out_B_im (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : ¬cond0_0 i)
    (x0 : Vec Ideal S1x1024x96 .f32) (x1 : Vec Ideal S1x1024x96 .f32) (x2 : Vec Ideal S1x5x1024x96 .f32) (x3 : Vec Ideal S1x5x1024x96 .f32) (xs0 xs1 : Vec Ideal S4x96 .f32) (r : Fin 1024) (f : Fin 96) :
    out0_B_5 (F := Ideal) c i a2 h2 a3 h3 a4 h4 a5 h5 a6 h6 a7 h7 a8 h8 a9 h9 a10 h10 a11 h11 hc x0 x1 x2 x3 xs0 xs1 (ix3 (0 : Fin 1) r f)
      = ∑ o : Fin 5, (ext (Val := Elt Ideal) (e := .f32) xs0 (k0_pay5 x0) (⟨r.val + o.val, by have := r.isLt; have := o.isLt; omega⟩ : Fin 1028) f * k0_pay9 x3 (ix3 o r f)
          + ext (Val := Elt Ideal) (e := .f32) xs1 (k0_pay7 x1) (⟨r.val + o.val, by have := r.isLt; have := o.isLt; omega⟩ : Fin 1028) f * k0_pay8 x2 (ix3 o r f)) := by
  unfold out0_B_5
  rw [View.read_writes_eq_canon _ _ _ (cover0_B_5 c i a2 h2 a3 h3 a4 h4 a5 h5 a6 h6 a7 h7 a8 h8 a9 h9 a10 h10 a11 h11 hc x0 x1 x2 x3 xs0 xs1)]
  unfold kernelRun0_B
  dsimp only
  sl_unfold_words
  rw [View.canon_unit_zero hz3]
  simp only [View.readAt_eq_ld, h2.read_unread, h3.read_unread, h4.read_unread, h5.read_unread, h8.read_unread, h9.read_unread, View.ld_unit_zero (S := S4x96) hz2,
    View.ld_unit_zero (S := S1x1024x96) hz3, View.ld_unit_zero (S := S1x5x1024x96) hz4, pay4_eq, pay6_eq]
  refine (im_chain (k0_pay8 x2) (k0_pay9 x3)
    (fun o => a10.view.readCov [(⟨Rect.unit (s := S1028x96) ![4, 0] S1024x96.size inb_S1028x96_S1024x96_4_0, k0_pay5 x0⟩ : View.Piece (Elt Ideal) S1028x96 .f32),
        (⟨Rect.unit (s := S1028x96) ![0, 0] S4x96.size inb_S1028x96_S4x96_0_0, xs0⟩ : View.Piece (Elt Ideal) S1028x96 .f32)] (Rect.unit (s := S1028x96) ![o.val, 0] S1024x96.size (tapRows_inb o)).toLoadRect)
    (fun o => a11.view.readCov [(⟨Rect.unit (s := S1028x96) ![4, 0] S1024x96.size inb_S1028x96_S1024x96_4_0, k0_pay7 x1⟩ : View.Piece (Elt Ideal) S1028x96 .f32),
        (⟨Rect.unit (s := S1028x96) ![0, 0] S4x96.size inb_S1028x96_S4x96_0_0, xs1⟩ : View.Piece (Elt Ideal) S1028x96 .f32)] (Rect.unit (s := S1028x96) ![o.val, 0] S1024x96.size (tapRows_inb o)).toLoadRect) r f).trans ?_
  refine Finset.sum_congr rfl fun o _ => ?_
  dsimp only
  rw [load_ext, load_ext]

/-- Case A (the first block of a batch: the history is zero): the real part's block at a time step and a frequency. -/
theorem out_A_re (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : cond0_0 i)
    (x0 : Vec Ideal S1x1024x96 .f32) (x1 : Vec Ideal S1x1024x96 .f32) (x2 : Vec Ideal S1x5x1024x96 .f32) (x3 : Vec Ideal S1x5x1024x96 .f32) (r : Fin 1024) (f : Fin 96) :
    out0_A_4 (F := Ideal) c i a2 h2 a3 h3 a4 h4 a5 h5 a6 h6 a7 h7 a8 h8 a9 h9 a10 h10 a11 h11 hc x0 x1 x2 x3 (ix3 (0 : Fin 1) r f)
      = ∑ o : Fin 5, (ext (Val := Elt Ideal) (e := .f32) (k0_pay2 (F := Ideal) : Vec Ideal S4x96 .f32) (k0_pay5 x0) (⟨r.val + o.val, by have := r.isLt; have := o.isLt; omega⟩ : Fin 1028) f * k0_pay8 x2 (ix3 o r f)
          - ext (Val := Elt Ideal) (e := .f32) (k0_pay3 (F := Ideal) : Vec Ideal S4x96 .f32) (k0_pay7 x1) (⟨r.val + o.val, by have := r.isLt; have := o.isLt; omega⟩ : Fin 1028) f * k0_pay9 x3 (ix3 o r f)) := by
  unfold out0_A_4
  rw [View.read_writes_eq_canon _ _ _ (cover0_A_4 c i a2 h2 a3 h3 a4 h4 a5 h5 a6 h6 a7 h7 a8 h8 a9 h9 a10 h10 a11 h11 hc x0 x1 x2 x3)]
  unfold kernelRun0_A
  dsimp only
  sl_unfold_words
  rw [View.canon_unit_zero hz3]
  simp only [View.readAt_eq_ld, h2.read_unread, h3.read_unread, h4.read_unread, h5.read_unread, View.readCov_unit_zero (S := S4x96) _ hz2,
    View.ld_unit_zero (S := S1x1024x96) hz3, View.ld_unit_zero (S := S1x5x1024x96) hz4, pay4_eq, pay6_eq]
  refine (re_chain (k0_pay8 x2) (k0_pay9 x3)
    (fun o => a10.view.readCov [(⟨Rect.unit (s := S1028x96) ![4, 0] S1024x96.size inb_S1028x96_S1024x96_4_0, k0_pay5 x0⟩ : View.Piece (Elt Ideal) S1028x96 .f32),
        (⟨Rect.unit (s := S1028x96) ![0, 0] S4x96.size inb_S1028x96_S4x96_0_0, (k0_pay2 (F := Ideal) : Vec Ideal S4x96 .f32)⟩ : View.Piece (Elt Ideal) S1028x96 .f32)] (Rect.unit (s := S1028x96) ![o.val, 0] S1024x96.size (tapRows_inb o)).toLoadRect)
    (fun o => a11.view.readCov [(⟨Rect.unit (s := S1028x96) ![4, 0] S1024x96.size inb_S1028x96_S1024x96_4_0, k0_pay7 x1⟩ : View.Piece (Elt Ideal) S1028x96 .f32),
        (⟨Rect.unit (s := S1028x96) ![0, 0] S4x96.size inb_S1028x96_S4x96_0_0, (k0_pay3 (F := Ideal) : Vec Ideal S4x96 .f32)⟩ : View.Piece (Elt Ideal) S1028x96 .f32)] (Rect.unit (s := S1028x96) ![o.val, 0] S1024x96.size (tapRows_inb o)).toLoadRect) r f).trans ?_
  refine Finset.sum_congr rfl fun o _ => ?_
  dsimp only
  rw [load_ext, load_ext]

/-- Case A (the first block of a batch: the history is zero): the imaginary part's block at a time step and a frequency. -/
theorem out_A_im (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : cond0_0 i)
    (x0 : Vec Ideal S1x1024x96 .f32) (x1 : Vec Ideal S1x1024x96 .f32) (x2 : Vec Ideal S1x5x1024x96 .f32) (x3 : Vec Ideal S1x5x1024x96 .f32) (r : Fin 1024) (f : Fin 96) :
    out0_A_5 (F := Ideal) c i a2 h2 a3 h3 a4 h4 a5 h5 a6 h6 a7 h7 a8 h8 a9 h9 a10 h10 a11 h11 hc x0 x1 x2 x3 (ix3 (0 : Fin 1) r f)
      = ∑ o : Fin 5, (ext (Val := Elt Ideal) (e := .f32) (k0_pay2 (F := Ideal) : Vec Ideal S4x96 .f32) (k0_pay5 x0) (⟨r.val + o.val, by have := r.isLt; have := o.isLt; omega⟩ : Fin 1028) f * k0_pay9 x3 (ix3 o r f)
          + ext (Val := Elt Ideal) (e := .f32) (k0_pay3 (F := Ideal) : Vec Ideal S4x96 .f32) (k0_pay7 x1) (⟨r.val + o.val, by have := r.isLt; have := o.isLt; omega⟩ : Fin 1028) f * k0_pay8 x2 (ix3 o r f)) := by
  unfold out0_A_5
  rw [View.read_writes_eq_canon _ _ _ (cover0_A_5 c i a2 h2 a3 h3 a4 h4 a5 h5 a6 h6 a7 h7 a8 h8 a9 h9 a10 h10 a11 h11 hc x0 x1 x2 x3)]
  unfold kernelRun0_A
  dsimp only
  sl_unfold_words
  rw [View.canon_unit_zero hz3]
  simp only [View.readAt_eq_ld, h2.read_unread, h3.read_unread, h4.read_unread, h5.read_unread, View.readCov_unit_zero (S := S4x96) _ hz2,
    View.ld_unit_zero (S := S1x1024x96) hz3, View.ld_unit_zero (S := S1x5x1024x96) hz4, pay4_eq, pay6_eq]
  refine (im_chain (k0_pay8 x2) (k0_pay9 x3)
    (fun o => a10.view.readCov [(⟨Rect.unit (s := S1028x96) ![4, 0] S1024x96.size inb_S1028x96_S1024x96_4_0, k0_pay5 x0⟩ : View.Piece (Elt Ideal) S1028x96 .f32),
        (⟨Rect.unit (s := S1028x96) ![0, 0] S4x96.size inb_S1028x96_S4x96_0_0, (k0_pay2 (F := Ideal) : Vec Ideal S4x96 .f32)⟩ : View.Piece (Elt Ideal) S1028x96 .f32)] (Rect.unit (s := S1028x96) ![o.val, 0] S1024x96.size (tapRows_inb o)).toLoadRect)
    (fun o => a11.view.readCov [(⟨Rect.unit (s := S1028x96) ![4, 0] S1024x96.size inb_S1028x96_S1024x96_4_0, k0_pay7 x1⟩ : View.Piece (Elt Ideal) S1028x96 .f32),
        (⟨Rect.unit (s := S1028x96) ![0, 0] S4x96.size inb_S1028x96_S4x96_0_0, (k0_pay3 (F := Ideal) : Vec Ideal S4x96 .f32)⟩ : View.Piece (Elt Ideal) S1028x96 .f32)] (Rect.unit (s := S1028x96) ![o.val, 0] S1024x96.size (tapRows_inb o)).toLoadRect) r f).trans ?_
  refine Finset.sum_congr rfl fun o _ => ?_
  dsimp only
  rw [load_ext, load_ext]

/-! ## What each case leaves in the history -/

/-- Case B: what the body leaves in the real parts' history: the block's last four time steps. -/
theorem hist_B_0 (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : ¬cond0_0 i)
    (x0 : Vec Ideal S1x1024x96 .f32) (x1 : Vec Ideal S1x1024x96 .f32) (x2 : Vec Ideal S1x5x1024x96 .f32) (x3 : Vec Ideal S1x5x1024x96 .f32) (xs0 xs1 : Vec Ideal S4x96 .f32) :
    sout0_B_0 (F := Ideal) c i a2 h2 a3 h3 a4 h4 a5 h5 a6 h6 a7 h7 a8 h8 a9 h9 a10 h10 a11 h11 hc x0 x1 x2 x3 xs0 xs1
      = k0_pay24 (View.ld x0 (Rect.unit (s := S1x1024x96) ![0, 1020, 0] S1x4x96.size inb_S1x1024x96_S1x4x96_0_1020_0)) := by
  unfold sout0_B_0
  rw [View.read_writes_eq_canon _ _ _ (scover0_B_0 c i a2 h2 a3 h3 a4 h4 a5 h5 a6 h6 a7 h7 a8 h8 a9 h9 a10 h10 a11 h11 hc x0 x1 x2 x3 xs0 xs1)]
  unfold kernelRun0_B
  dsimp only
  sl_unfold_words
  rw [View.canon_unit_zero hz2]
  simp only [View.readAt_eq_ld, h2.read_unread]

/-- Case B: what the body leaves in the imaginary parts' history: the block's last four time steps. -/
theorem hist_B_1 (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : ¬cond0_0 i)
    (x0 : Vec Ideal S1x1024x96 .f32) (x1 : Vec Ideal S1x1024x96 .f32) (x2 : Vec Ideal S1x5x1024x96 .f32) (x3 : Vec Ideal S1x5x1024x96 .f32) (xs0 xs1 : Vec Ideal S4x96 .f32) :
    sout0_B_1 (F := Ideal) c i a2 h2 a3 h3 a4 h4 a5 h5 a6 h6 a7 h7 a8 h8 a9 h9 a10 h10 a11 h11 hc x0 x1 x2 x3 xs0 xs1
      = k0_pay1 (View.ld x1 (Rect.unit (s := S1x1024x96) ![0, 1020, 0] S1x4x96.size inb_S1x1024x96_S1x4x96_0_1020_0)) := by
  unfold sout0_B_1
  rw [View.read_writes_eq_canon _ _ _ (scover0_B_1 c i a2 h2 a3 h3 a4 h4 a5 h5 a6 h6 a7 h7 a8 h8 a9 h9 a10 h10 a11 h11 hc x0 x1 x2 x3 xs0 xs1)]
  unfold kernelRun0_B
  dsimp only
  sl_unfold_words
  rw [View.canon_unit_zero hz2]
  simp only [View.readAt_eq_ld, h3.read_unread]

/-- Case A: what the body leaves in the real parts' history: the block's last four time steps. -/
theorem hist_A_0 (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : cond0_0 i)
    (x0 : Vec Ideal S1x1024x96 .f32) (x1 : Vec Ideal S1x1024x96 .f32) (x2 : Vec Ideal S1x5x1024x96 .f32) (x3 : Vec Ideal S1x5x1024x96 .f32) :
    sout0_A_0 (F := Ideal) c i a2 h2 a3 h3 a4 h4 a5 h5 a6 h6 a7 h7 a8 h8 a9 h9 a10 h10 a11 h11 hc x0 x1 x2 x3
      = k0_pay24 (View.ld x0 (Rect.unit (s := S1x1024x96) ![0, 1020, 0] S1x4x96.size inb_S1x1024x96_S1x4x96_0_1020_0)) := by
  unfold sout0_A_0
  rw [View.read_writes_eq_canon _ _ _ (scover0_A_0 c i a2 h2 a3 h3 a4 h4 a5 h5 a6 h6 a7 h7 a8 h8 a9 h9 a10 h10 a11 h11 hc x0 x1 x2 x3)]
  unfold kernelRun0_A
  dsimp only
  sl_unfold_words
  rw [View.canon_cons_unit_zero (S := S4x96) hz2]
  simp only [View.readAt_eq_ld, h2.read_unread]

/-- Case A: what the body leaves in the imaginary parts' history: the block's last four time steps. -/
theorem hist_A_1 (c : Dev nD) (i : grid0.Coords) (a2 : Memref sig .tc .vmem S1x1024x96 .f32) (h2 : a2.IsWhole) (a3 : Memref sig .tc .vmem S1x1024x96 .f32) (h3 : a3.IsWhole) (a4 : Memref sig .tc .vmem S1x5x1024x96 .f32) (h4 : a4.IsWhole) (a5 : Memref sig .tc .vmem S1x5x1024x96 .f32) (h5 : a5.IsWhole) (a6 : Memref sig .tc .vmem S1x1024x96 .f32) (h6 : a6.IsWhole) (a7 : Memref sig .tc .vmem S1x1024x96 .f32) (h7 : a7.IsWhole) (a8 : Memref sig .tc .vmem S4x96 .f32) (h8 : a8.IsWhole) (a9 : Memref sig .tc .vmem S4x96 .f32) (h9 : a9.IsWhole) (a10 : Memref sig .tc .vmem S1028x96 .f32) (h10 : a10.IsWhole) (a11 : Memref sig .tc .vmem S1028x96 .f32) (h11 : a11.IsWhole) (hc : cond0_0 i)
    (x0 : Vec Ideal S1x1024x96 .f32) (x1 : Vec Ideal S1x1024x96 .f32) (x2 : Vec Ideal S1x5x1024x96 .f32) (x3 : Vec Ideal S1x5x1024x96 .f32) :
    sout0_A_1 (F := Ideal) c i a2 h2 a3 h3 a4 h4 a5 h5 a6 h6 a7 h7 a8 h8 a9 h9 a10 h10 a11 h11 hc x0 x1 x2 x3
      = k0_pay1 (View.ld x1 (Rect.unit (s := S1x1024x96) ![0, 1020, 0] S1x4x96.size inb_S1x1024x96_S1x4x96_0_1020_0)) := by
  unfold sout0_A_1
  rw [View.read_writes_eq_canon _ _ _ (scover0_A_1 c i a2 h2 a3 h3 a4 h4 a5 h5 a6 h6 a7 h7 a8 h8 a9 h9 a10 h10 a11 h11 hc x0 x1 x2 x3)]
  unfold kernelRun0_A
  dsimp only
  sl_unfold_words
  rw [View.canon_cons_unit_zero (S := S4x96) hz2]
  simp only [View.readAt_eq_ld, h3.read_unread]

/-- The history a point leaves, at row `q`: the block's time step `1020 + q`. -/
theorem kept_rows_apply (x : Vec Ideal S1x1024x96 .f32) (q : Fin 4) (f : Fin 96) :
    View.ld x (Rect.unit (s := S1x1024x96) ![0, 1020, 0] S1x4x96.size inb_S1x1024x96_S1x4x96_0_1020_0) (ix3 (0 : Fin 1) q f)
      = x (ix3 (0 : Fin 1) (⟨1020 + q.val, by have := q.isLt; omega⟩ : Fin 1024) f) := by
  show x _ = x _
  refine congrArg x (funext fun a => Fin.ext ?_)
  match a with
  | ⟨0, _⟩ => show 0 + 1 * 0 = 0; rfl
  | ⟨1, _⟩ => show 1020 + 1 * q.val = 1020 + q.val; omega
  | ⟨2, _⟩ => show 0 + 1 * f.val = f.val; omega

end Cert.KernelIdeal.FirValue

end
-- ==== Proof.FirInputs.lean ====
/-
  The region's inputs, in terms of the two arguments.

  Before the region the host slices the low band out of the spectrogram and splits it into its real and imaginary
  parts, [batch, time, frequency] each, and splits the coefficients likewise into [batch, tap, time, frequency].
  The region walks 8 batches by 4 blocks of 1024 time steps: point `t` is batch `t / 4`, block `t % 4`, and its
  blocks are the arrays' rows `1024 · (t % 4)` to `1024 · (t % 4) + 1023` of that batch.
-/
import proofs.«130019_j55765855371924_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.FirValue

open Cert.KernelIdeal Cert.KernelIdeal.Gen

variable {F : FTy → Type} [FloatOps F]
variable (m : (ℓ : Loc nD τ sig) → Buf (Elt F) ℓ)

/-! ## The arrays the region finds -/

/-- The low band's part `p` as the region finds it: the spectrogram at [b, 0, T, f, p]. -/
theorem lowPart_apply (x : S8x1x4096x481x2.Idx → Elt F .f32) (p : Fin 2)
    (hsl : S8x4096x96x2.Slices ![0, 0, 0, p.val] S8x4096x96x1)
    (b : Fin 8) (T : Fin 4096) (f : Fin 96) :
    shapeCast S8x4096x96 (extractStridedSlice S8x4096x96x1 ![0, 0, 0, p.val]
        (shapeCast S8x4096x96x2 (extractStridedSlice S8x1x4096x96x2 ![0, 0, 0, 0, 0] x
          slices_S8x1x4096x481x2_S8x1x4096x96x2_0_0_0_0_0) shapeCasts_S8x1x4096x96x2_S8x4096x96x2) hsl)
      shapeCasts_S8x4096x96x1_S8x4096x96 (ix3 b T f)
      = x (ix5 b (0 : Fin 1) T (⟨f.val, by have := f.isLt; omega⟩ : Fin 481) p) := by
  refine (shapeCast_apply _ _ (ix3 b T f) (ix4 b T f (0 : Fin 1)) ?_).trans ?_
  · rw [Shape.rowMajor_val_four, Shape.rowMajor_val_three]
    show ((b.val * 4096 + T.val) * 96 + f.val) * 1 + 0 = (b.val * 4096 + T.val) * 96 + f.val
    omega
  refine (extractStridedSlice_apply _ _ hsl (ix4 b T f (0 : Fin 1)) (ix4 b T f p) (fun a => match a with
    | ⟨0, _⟩ => by show b.val = 0 + b.val; omega
    | ⟨1, _⟩ => by show T.val = 0 + T.val; omega
    | ⟨2, _⟩ => by show f.val = 0 + f.val; omega
    | ⟨3, _⟩ => by show p.val = p.val + 0; omega)).trans ?_
  refine (shapeCast_apply _ _ (ix4 b T f p) (ix5 b (0 : Fin 1) T f p) ?_).trans ?_
  · rw [Shape.rowMajor_val_five, Shape.rowMajor_val_four]
    show (((b.val * 1 + 0) * 4096 + T.val) * 96 + f.val) * 2 + p.val = ((b.val * 4096 + T.val) * 96 + f.val) * 2 + p.val
    omega
  exact extractStridedSlice_apply _ x _ (ix5 b (0 : Fin 1) T f p) _ (fun a => match a with
    | ⟨0, _⟩ => by show b.val = 0 + b.val; omega
    | ⟨1, _⟩ => by show (0 : Nat) = 0 + 0; rfl
    | ⟨2, _⟩ => by show T.val = 0 + T.val; omega
    | ⟨3, _⟩ => by show f.val = 0 + f.val; omega
    | ⟨4, _⟩ => by show p.val = 0 + p.val; omega)

/-- The coefficients' part `p` as the region finds it: the coefficients at [b, o, T, f, p]. -/
theorem coefPart_apply (w : S8x5x4096x96x2.Idx → Elt F .f32) (p : Fin 2)
    (hsl : S8x5x4096x96x2.Slices ![0, 0, 0, 0, p.val] S8x5x4096x96x1)
    (b : Fin 8) (o : Fin 5) (T : Fin 4096) (f : Fin 96) :
    shapeCast S8x5x4096x96 (extractStridedSlice S8x5x4096x96x1 ![0, 0, 0, 0, p.val] w hsl)
      shapeCasts_S8x5x4096x96x1_S8x5x4096x96 (ix4 b o T f)
      = w (ix5 b o T f p) := by
  refine (shapeCast_apply _ _ (ix4 b o T f) (ix5 b o T f (0 : Fin 1)) ?_).trans ?_
  · rw [Shape.rowMajor_val_five, Shape.rowMajor_val_four]
    show (((b.val * 5 + o.val) * 4096 + T.val) * 96 + f.val) * 1 + 0 = ((b.val * 5 + o.val) * 4096 + T.val) * 96 + f.val
    omega
  exact extractStridedSlice_apply _ w hsl (ix5 b o T f (0 : Fin 1)) (ix5 b o T f p) (fun a => match a with
    | ⟨0, _⟩ => by show b.val = 0 + b.val; omega
    | ⟨1, _⟩ => by show o.val = 0 + o.val; omega
    | ⟨2, _⟩ => by show T.val = 0 + T.val; omega
    | ⟨3, _⟩ => by show f.val = 0 + f.val; omega
    | ⟨4, _⟩ => by show p.val = p.val + 0; omega)

/-- The real parts' array as the region finds it. -/
theorem V_v3_apply (c : Dev nD) (b : Fin 8) (T : Fin 4096) (f : Fin 96) :
    V m c main_v3 (ix3 b T f)
      = m ((c : Thread nD τ).loc main_arg0) (ix5 b (0 : Fin 1) T (⟨f.val, by have := f.isLt; omega⟩ : Fin 481) (0 : Fin 2)) := by
  have e : (V m c main_v3 : S8x4096x96.Idx → Elt F .f32)
      = shapeCast S8x4096x96 (extractStridedSlice S8x4096x96x1 ![0, 0, 0, 0]
          (shapeCast S8x4096x96x2 (extractStridedSlice S8x1x4096x96x2 ![0, 0, 0, 0, 0] (m ((c : Thread nD τ).loc main_arg0))
            slices_S8x1x4096x481x2_S8x1x4096x96x2_0_0_0_0_0) shapeCasts_S8x1x4096x96x2_S8x4096x96x2)
          slices_S8x4096x96x2_S8x4096x96x1_0_0_0_0) shapeCasts_S8x4096x96x1_S8x4096x96 := by
    show StableHlo.after hostOps0 (fun b => m (c, b)) (Proc.devRef .tc main_v3) = _
    after_results
    rfl
  rw [e]
  exact lowPart_apply (m ((c : Thread nD τ).loc main_arg0)) (0 : Fin 2) slices_S8x4096x96x2_S8x4096x96x1_0_0_0_0 b T f

/-- The imaginary parts' array as the region finds it. -/
theorem V_v5_apply (c : Dev nD) (b : Fin 8) (T : Fin 4096) (f : Fin 96) :
    V m c main_v5 (ix3 b T f)
      = m ((c : Thread nD τ).loc main_arg0) (ix5 b (0 : Fin 1) T (⟨f.val, by have := f.isLt; omega⟩ : Fin 481) (1 : Fin 2)) := by
  have e : (V m c main_v5 : S8x4096x96.Idx → Elt F .f32)
      = shapeCast S8x4096x96 (extractStridedSlice S8x4096x96x1 ![0, 0, 0, 1]
          (shapeCast S8x4096x96x2 (extractStridedSlice S8x1x4096x96x2 ![0, 0, 0, 0, 0] (m ((c : Thread nD τ).loc main_arg0))
            slices_S8x1x4096x481x2_S8x1x4096x96x2_0_0_0_0_0) shapeCasts_S8x1x4096x96x2_S8x4096x96x2)
          slices_S8x4096x96x2_S8x4096x96x1_0_0_0_1) shapeCasts_S8x4096x96x1_S8x4096x96 := by
    show StableHlo.after hostOps0 (fun b => m (c, b)) (Proc.devRef .tc main_v5) = _
    after_results
    rfl
  rw [e]
  exact lowPart_apply (m ((c : Thread nD τ).loc main_arg0)) (1 : Fin 2) slices_S8x4096x96x2_S8x4096x96x1_0_0_0_1 b T f

/-- The coefficients' real parts as the region finds them. -/
theorem V_v7_apply (c : Dev nD) (b : Fin 8) (o : Fin 5) (T : Fin 4096) (f : Fin 96) :
    V m c main_v7 (ix4 b o T f) = m ((c : Thread nD τ).loc main_arg1) (ix5 b o T f (0 : Fin 2)) := by
  have e : (V m c main_v7 : S8x5x4096x96.Idx → Elt F .f32)
      = shapeCast S8x5x4096x96 (extractStridedSlice S8x5x4096x96x1 ![0, 0, 0, 0, 0] (m ((c : Thread nD τ).loc main_arg1))
          slices_S8x5x4096x96x2_S8x5x4096x96x1_0_0_0_0_0) shapeCasts_S8x5x4096x96x1_S8x5x4096x96 := by
    show StableHlo.after hostOps0 (fun b => m (c, b)) (Proc.devRef .tc main_v7) = _
    after_results
    rfl
  rw [e]
  exact coefPart_apply (m ((c : Thread nD τ).loc main_arg1)) (0 : Fin 2) slices_S8x5x4096x96x2_S8x5x4096x96x1_0_0_0_0_0 b o T f

/-- The coefficients' imaginary parts as the region finds them. -/
theorem V_v9_apply (c : Dev nD) (b : Fin 8) (o : Fin 5) (T : Fin 4096) (f : Fin 96) :
    V m c main_v9 (ix4 b o T f) = m ((c : Thread nD τ).loc main_arg1) (ix5 b o T f (1 : Fin 2)) := by
  have e : (V m c main_v9 : S8x5x4096x96.Idx → Elt F .f32)
      = shapeCast S8x5x4096x96 (extractStridedSlice S8x5x4096x96x1 ![0, 0, 0, 0, 1] (m ((c : Thread nD τ).loc main_arg1))
          slices_S8x5x4096x96x2_S8x5x4096x96x1_0_0_0_0_1) shapeCasts_S8x5x4096x96x1_S8x5x4096x96 := by
    show StableHlo.after hostOps0 (fun b => m (c, b)) (Proc.devRef .tc main_v9) = _
    after_results
    rfl
  rw [e]
  exact coefPart_apply (m ((c : Thread nD τ).loc main_arg1)) (1 : Fin 2) slices_S8x5x4096x96x2_S8x5x4096x96x1_0_0_0_0_1 b o T f

/-! ## The grid -/

/-- Point `t` is batch `t / 4`, block `t % 4`: the windows' block indices, decided over the grid. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 4) = t.val / 4 ∧ win0_2.index t (1 : Fin 4) = 0 ∧ win0_2.index t (2 : Fin 4) = t.val % 4 ∧ win0_2.index t (3 : Fin 4) = 0)
    ∧ (win0_3.index t (0 : Fin 4) = t.val / 4 ∧ win0_3.index t (1 : Fin 4) = 0 ∧ win0_3.index t (2 : Fin 4) = t.val % 4 ∧ win0_3.index t (3 : Fin 4) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

end Cert.KernelIdeal.FirValue

end
-- ==== Proof.FirTap.lean ====
/-
  The extended window of a block is the delayed sample of the specification.

  Block `k` (of 4) of batch `b` covers the time steps `1024·k` to `1024·k + 1023`. If the block's rows are the
  spectrogram's part `p` at those time steps, and the history rows are its last four time steps before the block —
  zero when the block is the first of its batch — then row `r + o` of the extended window is the sample at time
  `1024·k + r + o - 4`, zero before time 0: what tap `o` meets at time step `1024·k + r`.
-/
import proofs.«130019_j55765855371924_1_alg».proof.Proof.FirSpec
import proofs.«130019_j55765855371924_1_alg».proof.Proof.FirWindow

noncomputable section

namespace Cert.Fir

open Idealize.ShloMosaic Idealize.ShloMosaic.ValueIdx

/-- The time step of row `r` of block `k`. -/
abbrev timeOf (k : Fin 4) (r : Fin 1024) : Fin 4096 := ⟨k.val * 1024 + r.val, by have := k.isLt; have := r.isLt; omega⟩

theorem ext_eq_tap (x : SX.Idx → EReal) (p : Fin 2) (b : Fin 8) (k : Fin 4)
    (H : SHist.Idx → Elt Ideal .f32) (P : SBlk.Idx → Elt Ideal .f32)
    (hP : ∀ (r' : Fin 1024) (f : Fin 96),
      P (ix2 r' f) = x (ix5 b (0 : Fin 1) (timeOf k r') (⟨f.val, by have := f.isLt; omega⟩ : Fin 481) p))
    (hH0 : k.val = 0 → ∀ (q : Fin 4) (f : Fin 96), H (ix2 q f) = (0 : EReal))
    (hH1 : ∀ hk : k.val ≠ 0, ∀ (q : Fin 4) (f : Fin 96),
      H (ix2 q f) = x (ix5 b (0 : Fin 1) (⟨k.val * 1024 + q.val - 4, by have := k.isLt; have := q.isLt; omega⟩ : Fin 4096)
        (⟨f.val, by have := f.isLt; omega⟩ : Fin 481) p))
    (r : Fin 1024) (o : Fin 5) (f : Fin 96) :
    ext (Val := Elt Ideal) (e := .f32) H P (⟨r.val + o.val, by have := r.isLt; have := o.isLt; omega⟩ : Fin 1028) f = tap x b (timeOf k r) f p o := by
  have hr := r.isLt
  have ho := o.isLt
  have hk := k.isLt
  unfold ext tap
  by_cases hq : r.val + o.val < 4
  · rw [dif_pos hq]
    by_cases hk0 : k.val = 0
    · rw [hH0 hk0, dif_neg]
      show ¬ 4 ≤ k.val * 1024 + r.val + o.val
      omega
    · rw [hH1 hk0, dif_pos (show 4 ≤ k.val * 1024 + r.val + o.val by omega)]
      have hT : (⟨k.val * 1024 + (r.val + o.val) - 4, by omega⟩ : Fin 4096)
          = ⟨k.val * 1024 + r.val + o.val - 4, by omega⟩ := Fin.ext (by show k.val * 1024 + (r.val + o.val) - 4 = k.val * 1024 + r.val + o.val - 4; omega)
      exact congrArg (fun T => x (ix5 b (0 : Fin 1) T (⟨f.val, by have := f.isLt; omega⟩ : Fin 481) p)) hT
  · rw [dif_neg hq, hP, dif_pos (show 4 ≤ k.val * 1024 + r.val + o.val by omega)]
    have hT : timeOf k (⟨r.val + o.val - 4, by omega⟩ : Fin 1024)
        = ⟨k.val * 1024 + r.val + o.val - 4, by omega⟩ := Fin.ext (by show k.val * 1024 + (r.val + o.val - 4) = k.val * 1024 + r.val + o.val - 4; omega)
    exact congrArg (fun T => x (ix5 b (0 : Fin 1) T (⟨f.val, by have := f.isLt; omega⟩ : Fin 481) p)) hT

end Cert.Fir

end
-- ==== Proof.FirBlocks.lean ====
/-
  From the grid's points to the two arrays the region writes.

  Point `t` of the 32 is batch `t / 4`, block `t % 4`. Its four input blocks are the low band's real and imaginary
  parts and the coefficients' real and imaginary parts at that batch and those 1024 time steps; the history it finds
  is zero at the first block of a batch and otherwise the four time steps just before the block, which the point
  before left there. So the extended window is the specification's delayed sample, and what the point writes back
  is the block of the filtered real parts (window 4) and of the filtered imaginary parts (window 5). The 32 blocks
  tile the two [8, 4096, 96] arrays, which therefore end as the filtered real and imaginary parts.
-/
import proofs.«130019_j55765855371924_1_alg».proof.Proof.FirPoint
import proofs.«130019_j55765855371924_1_alg».proof.Proof.FirInputs
import proofs.«130019_j55765855371924_1_alg».proof.Proof.FirTap

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.FirValue

open Cert.KernelIdeal Cert.KernelIdeal.Gen Cert.Fir

variable (m : (ℓ : Loc nD τ sig) → Buf (Elt Ideal) ℓ)

/-- The batch of a point. -/
def batchOf (t : Fin cfg0.N) : Fin 8 :=
  ⟨t.val / 4, by have := lt_of_lt_of_eq t.isLt (show cfg0.N = 32 from N_0); omega⟩
/-- The block, among the batch's four, of a point. -/
def blockOf (t : Fin cfg0.N) : Fin 4 := ⟨t.val % 4, Nat.mod_lt _ (by decide)⟩

/-! ## The input blocks -/

/-- Window 0's block at a point: part 0 of the low band at the point's batch and time steps. -/
theorem blk0_apply (c : Dev nD) (t : Fin cfg0.N) (r : Fin 1024) (f : Fin 96) :
    iblk m c 0 t (ix3 (0 : Fin 1) r f)
      = (m ((c : Thread nD τ).loc main_arg0)) (ix5 (batchOf t) (0 : Fin 1) (timeOf (blockOf t) r) (⟨f.val, by have := f.isLt; omega⟩ : Fin 481) (0 : Fin 2)) := by
  obtain ⟨e0, e1, e2⟩ := (idx_facts t).1
  refine Eq.trans ?_ (V_v3_apply m c (batchOf t) (timeOf (blockOf t) r) f)
  unfold iblk
  rw [View.read_apply]
  show V m c main_v3 _ = V m c main_v3 _
  refine congrArg (V m c main_v3) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = t.val % 4 * 1024 + r.val; omega
  | ⟨2, _⟩ => show win0_0.index t (2 : Fin 3) * 96 + 1 * f.val = f.val; omega

/-- Window 1's block at a point: part 1 of the low band at the point's batch and time steps. -/
theorem blk1_apply (c : Dev nD) (t : Fin cfg0.N) (r : Fin 1024) (f : Fin 96) :
    iblk m c 1 t (ix3 (0 : Fin 1) r f)
      = (m ((c : Thread nD τ).loc main_arg0)) (ix5 (batchOf t) (0 : Fin 1) (timeOf (blockOf t) r) (⟨f.val, by have := f.isLt; omega⟩ : Fin 481) (1 : Fin 2)) := by
  obtain ⟨e0, e1, e2⟩ := (idx_facts t).2.1
  refine Eq.trans ?_ (V_v5_apply m c (batchOf t) (timeOf (blockOf t) r) f)
  unfold iblk
  rw [View.read_apply]
  show V m c main_v5 _ = V m c main_v5 _
  refine congrArg (V m c main_v5) (funext fun a => Fin.ext ?_)
  match a with
  | ⟨0, _⟩ => show win0_1.index t (0 : Fin 3) * 1 + 1 * 0 = t.val / 4; omega
  | ⟨1, _⟩ => show win0_1.index t (1 : Fin 3) * 1024 + 1 * r.val = t.val % 4 * 1024 + r.val; omega
  | ⟨2, _⟩ => show win0_1.index t (2 : Fin 3) * 96 + 1 * f.val = f.val; omega

/-- Window 2's block at a point: part 0 of the five taps' coefficients at the point's batch and time steps. -/
theorem blk2_apply (c : Dev nD) (t : Fin cfg0.N) (o : Fin 5) (r : Fin 1024) (f : Fin 96) :
    iblk m c 2 t (ix4 (0 : Fin 1) o r f) = (m ((c : Thread nD τ).loc main_arg1)) (ix5 (batchOf t) o (timeOf (blockOf t) r) f (0 : Fin 2)) := by
  obtain ⟨e0, e1, e2, e3⟩ := (idx_facts t).2.2.1
  refine Eq.trans ?_ (V_v7_apply m c (batchOf t) o (timeOf (blockOf t) r) f)
  unfold iblk
  rw [View.read_apply]
  show V m c main_v7 _ = V m c main_v7 _
  refine congrArg (V m c main_v7) (funext fun a => Fin.ext ?_)
  match a with
  | ⟨0, _⟩ => show win0_2.index t (0 : Fin 4) * 1 + 1 * 0 = t.val / 4; omega
  | ⟨1, _⟩ => show win0_2.index t (1 : Fin 4) * 5 + 1 * o.val = o.val; omega
  | ⟨2, _⟩ => show win0_2.index t (2 : Fin 4) * 1024 + 1 * r.val = t.val % 4 * 1024 + r.val; omega
  | ⟨3, _⟩ => show win0_2.index t (3 : Fin 4) * 96 + 1 * f.val = f.val; omega

/-- Window 3's block at a point: part 1 of the five taps' coefficients at the point's batch and time steps. -/
theorem blk3_apply (c : Dev nD) (t : Fin cfg0.N) (o : Fin 5) (r : Fin 1024) (f : Fin 96) :
    iblk m c 3 t (ix4 (0 : Fin 1) o r f) = (m ((c : Thread nD τ).loc main_arg1)) (ix5 (batchOf t) o (timeOf (blockOf t) r) f (1 : Fin 2)) := by
  obtain ⟨e0, e1, e2, e3⟩ := (idx_facts t).2.2.2.1
  refine Eq.trans ?_ (V_v9_apply m c (batchOf t) o (timeOf (blockOf t) r) f)
  unfold iblk
  rw [View.read_apply]
  show V m c main_v9 _ = V m c main_v9 _
  refine congrArg (V m c main_v9) (funext fun a => Fin.ext ?_)
  match a with
  | ⟨0, _⟩ => show win0_3.index t (0 : Fin 4) * 1 + 1 * 0 = t.val / 4; omega
  | ⟨1, _⟩ => show win0_3.index t (1 : Fin 4) * 5 + 1 * o.val = o.val; omega
  | ⟨2, _⟩ => show win0_3.index t (2 : Fin 4) * 1024 + 1 * r.val = t.val % 4 * 1024 + r.val; omega
  | ⟨3, _⟩ => show win0_3.index t (3 : Fin 4) * 96 + 1 * f.val = f.val; omega

/-! ## The history -/

/-- After any point the two histories hold the last four time steps of the point's blocks. -/
theorem kept_eq (c : Dev nD) (t : Fin cfg0.N) :
    (outsAt0 m c t.val t.isLt).2.2.1
        = k0_pay24 (View.ld (iblk m c 0 t) (Rect.unit (s := S1x1024x96) ![0, 1020, 0] S1x4x96.size inb_S1x1024x96_S1x4x96_0_1020_0))
      ∧ (outsAt0 m c t.val t.isLt).2.2.2
        = k0_pay1 (View.ld (iblk m c 1 t) (Rect.unit (s := S1x1024x96) ![0, 1020, 0] S1x4x96.size inb_S1x1024x96_S1x4x96_0_1020_0)) := by
  by_cases h0 : t.val % 4 = 0
  · rw [outsAt0_A m c t h0]
    exact ⟨hist_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t),
      hist_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t)⟩
  · rw [outsAt0_B m c t h0]
    exact ⟨hist_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2,
      hist_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At a later block of a batch the real parts' history is the four time steps just before the block. -/
theorem hist_rows_0 (c : Dev nD) (t : Fin cfg0.N) (h0 : ¬t.val % 4 = 0) (q : Fin 4) (f : Fin 96) :
    (outsAt0 m c (t.val - 1) (Nat.lt_of_le_of_lt (Nat.sub_le _ _) t.isLt)).2.2.1 (ix2 q f)
      = (m ((c : Thread nD τ).loc main_arg0)) (ix5 (batchOf t) (0 : Fin 1)
          (⟨(blockOf t).val * 1024 + q.val - 4, by have := (blockOf t).isLt; have := q.isLt; omega⟩ : Fin 4096) (⟨f.val, by have := f.isLt; omega⟩ : Fin 481) (0 : Fin 2)) := by
  have hN : t.val < 32 := lt_of_lt_of_eq t.isLt (show cfg0.N = 32 from N_0)
  have hq := q.isLt
  have key := (kept_eq m c (⟨t.val - 1, Nat.lt_of_le_of_lt (Nat.sub_le _ _) t.isLt⟩ : Fin cfg0.N)).1
  refine (congrFun key (ix2 q f)).trans ?_
  refine (pay24_apply _ q f).trans ?_
  refine (kept_rows_apply _ q f).trans ?_
  refine (blk0_apply m c (⟨t.val - 1, Nat.lt_of_le_of_lt (Nat.sub_le _ _) t.isLt⟩ : Fin cfg0.N)
    (⟨1020 + q.val, by omega⟩ : Fin 1024) f).trans ?_
  refine congrArg (m ((c : Thread nD τ).loc main_arg0)) (funext fun a => Fin.ext ?_)
  match a with
  | ⟨0, _⟩ => show (t.val - 1) / 4 = t.val / 4; omega
  | ⟨1, _⟩ => rfl
  | ⟨2, _⟩ => show (t.val - 1) % 4 * 1024 + (1020 + q.val) = t.val % 4 * 1024 + q.val - 4; omega
  | ⟨3, _⟩ => rfl
  | ⟨4, _⟩ => rfl

/-- At a later block of a batch the imaginary parts' history is the four time steps just before the block. -/
theorem hist_rows_1 (c : Dev nD) (t : Fin cfg0.N) (h0 : ¬t.val % 4 = 0) (q : Fin 4) (f : Fin 96) :
    (outsAt0 m c (t.val - 1) (Nat.lt_of_le_of_lt (Nat.sub_le _ _) t.isLt)).2.2.2 (ix2 q f)
      = (m ((c : Thread nD τ).loc main_arg0)) (ix5 (batchOf t) (0 : Fin 1)
          (⟨(blockOf t).val * 1024 + q.val - 4, by have := (blockOf t).isLt; have := q.isLt; omega⟩ : Fin 4096) (⟨f.val, by have := f.isLt; omega⟩ : Fin 481) (1 : Fin 2)) := by
  have hN : t.val < 32 := lt_of_lt_of_eq t.isLt (show cfg0.N = 32 from N_0)
  have hq := q.isLt
  have key := (kept_eq m c (⟨t.val - 1, Nat.lt_of_le_of_lt (Nat.sub_le _ _) t.isLt⟩ : Fin cfg0.N)).2
  refine (congrFun key (ix2 q f)).trans ?_
  refine (pay1_apply _ q f).trans ?_
  refine (kept_rows_apply _ q f).trans ?_
  refine (blk1_apply m c (⟨t.val - 1, Nat.lt_of_le_of_lt (Nat.sub_le _ _) t.isLt⟩ : Fin cfg0.N)
    (⟨1020 + q.val, by omega⟩ : Fin 1024) f).trans ?_
  refine congrArg (m ((c : Thread nD τ).loc main_arg0)) (funext fun a => Fin.ext ?_)
  match a with
  | ⟨0, _⟩ => show (t.val - 1) / 4 = t.val / 4; omega
  | ⟨1, _⟩ => rfl
  | ⟨2, _⟩ => show (t.val - 1) % 4 * 1024 + (1020 + q.val) = t.val % 4 * 1024 + q.val - 4; omega
  | ⟨3, _⟩ => rfl
  | ⟨4, _⟩ => rfl

/-! ## What a point writes -/

/-- What a point leaves in the real parts' output block is the filtered sample at the point's batch and time steps. -/
theorem point_re (c : Dev nD) (t : Fin cfg0.N) (r : Fin 1024) (f : Fin 96) :
    (outsAt0 m c t.val t.isLt).1 (ix3 (0 : Fin 1) r f)
      = filteredRe (m ((c : Thread nD τ).loc main_arg0)) (m ((c : Thread nD τ).loc main_arg1)) (batchOf t) (timeOf (blockOf t) r) f := by
  have hP0 : ∀ (r' : Fin 1024) (f' : Fin 96), k0_pay5 (iblk m c 0 t) (ix2 r' f')
      = (m ((c : Thread nD τ).loc main_arg0)) (ix5 (batchOf t) (0 : Fin 1) (timeOf (blockOf t) r') (⟨f'.val, by have := f'.isLt; omega⟩ : Fin 481) (0 : Fin 2)) :=
    fun r' f' => (pay5_apply _ r' f').trans (blk0_apply m c t r' f')
  have hP1 : ∀ (r' : Fin 1024) (f' : Fin 96), k0_pay7 (iblk m c 1 t) (ix2 r' f')
      = (m ((c : Thread nD τ).loc main_arg0)) (ix5 (batchOf t) (0 : Fin 1) (timeOf (blockOf t) r') (⟨f'.val, by have := f'.isLt; omega⟩ : Fin 481) (1 : Fin 2)) :=
    fun r' f' => (pay7_apply _ r' f').trans (blk1_apply m c t r' f')
  have hW0 : ∀ o : Fin 5, k0_pay8 (iblk m c 2 t) (ix3 o r f) = coef (m ((c : Thread nD τ).loc main_arg1)) (batchOf t) (timeOf (blockOf t) r) f (0 : Fin 2) o :=
    fun o => (pay8_apply _ o r f).trans (blk2_apply m c t o r f)
  have hW1 : ∀ o : Fin 5, k0_pay9 (iblk m c 3 t) (ix3 o r f) = coef (m ((c : Thread nD τ).loc main_arg1)) (batchOf t) (timeOf (blockOf t) r) f (1 : Fin 2) o :=
    fun o => (pay9_apply _ o r f).trans (blk3_apply m c t o r f)
  unfold filteredRe
  by_cases h0 : t.val % 4 = 0
  · rw [outsAt0_A m c t h0]
    dsimp only
    refine (out_A_re c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) r f).trans ?_
    refine Finset.sum_congr rfl fun o _ => ?_
    rw [hW0 o, hW1 o,
      ext_eq_tap (m ((c : Thread nD τ).loc main_arg0)) (0 : Fin 2) (batchOf t) (blockOf t) (k0_pay2 (F := Ideal)) (k0_pay5 (iblk m c 0 t)) hP0
        (fun _ q f' => pay2_apply _) (fun hk => absurd h0 hk) r o f,
      ext_eq_tap (m ((c : Thread nD τ).loc main_arg0)) (1 : Fin 2) (batchOf t) (blockOf t) (k0_pay3 (F := Ideal)) (k0_pay7 (iblk m c 1 t)) hP1
        (fun _ q f' => pay3_apply _) (fun hk => absurd h0 hk) r o f]
  · rw [outsAt0_B m c t h0]
    dsimp only
    refine (out_B_re c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.1 (outsAt0 m c (t.val - 1) (Nat.lt_of_le_of_lt (Nat.sub_le _ _) t.isLt)).2.2.2 r f).trans ?_
    refine Finset.sum_congr rfl fun o _ => ?_
    rw [hW0 o, hW1 o,
      ext_eq_tap (m ((c : Thread nD τ).loc main_arg0)) (0 : Fin 2) (batchOf t) (blockOf t) _ (k0_pay5 (iblk m c 0 t)) hP0
        (fun hk => absurd hk h0) (fun _ q f' => hist_rows_0 m c t h0 q f') r o f,
      ext_eq_tap (m ((c : Thread nD τ).loc main_arg0)) (1 : Fin 2) (batchOf t) (blockOf t) _ (k0_pay7 (iblk m c 1 t)) hP1
        (fun hk => absurd hk h0) (fun _ q f' => hist_rows_1 m c t h0 q f') r o f]

/-- The same at any index of the block. -/
theorem point_re' (c : Dev nD) (t : Fin cfg0.N) (y : S1x1024x96.Idx) :
    (outsAt0 m c t.val t.isLt).1 y = filteredRe (m ((c : Thread nD τ).loc main_arg0)) (m ((c : Thread nD τ).loc main_arg1)) (batchOf t) (timeOf (blockOf t) (y 1)) (y 2) := by
  have hy0 : y 0 = (0 : Fin 1) := Fin.ext (by have h : (y 0).val < 1 := (y 0).isLt; show (y 0).val = 0; omega)
  have hy : y = ix3 (0 : Fin 1) (y 1) (y 2) := (eq_ix3 y).trans (congrArg (fun u => ix3 u (y 1) (y 2)) hy0)
  exact (congrArg (outsAt0 m c t.val t.isLt).1 hy).trans (point_re m c t (y 1) (y 2))

/-- What a point leaves in the imaginary parts' output block is the filtered sample at the point's batch and time steps. -/
theorem point_im (c : Dev nD) (t : Fin cfg0.N) (r : Fin 1024) (f : Fin 96) :
    (outsAt0 m c t.val t.isLt).2.1 (ix3 (0 : Fin 1) r f)
      = filteredIm (m ((c : Thread nD τ).loc main_arg0)) (m ((c : Thread nD τ).loc main_arg1)) (batchOf t) (timeOf (blockOf t) r) f := by
  have hP0 : ∀ (r' : Fin 1024) (f' : Fin 96), k0_pay5 (iblk m c 0 t) (ix2 r' f')
      = (m ((c : Thread nD τ).loc main_arg0)) (ix5 (batchOf t) (0 : Fin 1) (timeOf (blockOf t) r') (⟨f'.val, by have := f'.isLt; omega⟩ : Fin 481) (0 : Fin 2)) :=
    fun r' f' => (pay5_apply _ r' f').trans (blk0_apply m c t r' f')
  have hP1 : ∀ (r' : Fin 1024) (f' : Fin 96), k0_pay7 (iblk m c 1 t) (ix2 r' f')
      = (m ((c : Thread nD τ).loc main_arg0)) (ix5 (batchOf t) (0 : Fin 1) (timeOf (blockOf t) r') (⟨f'.val, by have := f'.isLt; omega⟩ : Fin 481) (1 : Fin 2)) :=
    fun r' f' => (pay7_apply _ r' f').trans (blk1_apply m c t r' f')
  have hW0 : ∀ o : Fin 5, k0_pay8 (iblk m c 2 t) (ix3 o r f) = coef (m ((c : Thread nD τ).loc main_arg1)) (batchOf t) (timeOf (blockOf t) r) f (0 : Fin 2) o :=
    fun o => (pay8_apply _ o r f).trans (blk2_apply m c t o r f)
  have hW1 : ∀ o : Fin 5, k0_pay9 (iblk m c 3 t) (ix3 o r f) = coef (m ((c : Thread nD τ).loc main_arg1)) (batchOf t) (timeOf (blockOf t) r) f (1 : Fin 2) o :=
    fun o => (pay9_apply _ o r f).trans (blk3_apply m c t o r f)
  unfold filteredIm
  by_cases h0 : t.val % 4 = 0
  · rw [outsAt0_A m c t h0]
    dsimp only
    refine (out_A_im c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) r f).trans ?_
    refine Finset.sum_congr rfl fun o _ => ?_
    rw [hW1 o, hW0 o,
      ext_eq_tap (m ((c : Thread nD τ).loc main_arg0)) (0 : Fin 2) (batchOf t) (blockOf t) (k0_pay2 (F := Ideal)) (k0_pay5 (iblk m c 0 t)) hP0
        (fun _ q f' => pay2_apply _) (fun hk => absurd h0 hk) r o f,
      ext_eq_tap (m ((c : Thread nD τ).loc main_arg0)) (1 : Fin 2) (batchOf t) (blockOf t) (k0_pay3 (F := Ideal)) (k0_pay7 (iblk m c 1 t)) hP1
        (fun _ q f' => pay3_apply _) (fun hk => absurd h0 hk) r o f]
  · rw [outsAt0_B m c t h0]
    dsimp only
    refine (out_B_im c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.1 (outsAt0 m c (t.val - 1) (Nat.lt_of_le_of_lt (Nat.sub_le _ _) t.isLt)).2.2.2 r f).trans ?_
    refine Finset.sum_congr rfl fun o _ => ?_
    rw [hW1 o, hW0 o,
      ext_eq_tap (m ((c : Thread nD τ).loc main_arg0)) (0 : Fin 2) (batchOf t) (blockOf t) _ (k0_pay5 (iblk m c 0 t)) hP0
        (fun hk => absurd hk h0) (fun _ q f' => hist_rows_0 m c t h0 q f') r o f,
      ext_eq_tap (m ((c : Thread nD τ).loc main_arg0)) (1 : Fin 2) (batchOf t) (blockOf t) _ (k0_pay7 (iblk m c 1 t)) hP1
        (fun hk => absurd hk h0) (fun _ q f' => hist_rows_1 m c t h0 q f') r o f]

/-- The same at any index of the block. -/
theorem point_im' (c : Dev nD) (t : Fin cfg0.N) (y : S1x1024x96.Idx) :
    (outsAt0 m c t.val t.isLt).2.1 y = filteredIm (m ((c : Thread nD τ).loc main_arg0)) (m ((c : Thread nD τ).loc main_arg1)) (batchOf t) (timeOf (blockOf t) (y 1)) (y 2) := by
  have hy0 : y 0 = (0 : Fin 1) := Fin.ext (by have h : (y 0).val < 1 := (y 0).isLt; show (y 0).val = 0; omega)
  have hy : y = ix3 (0 : Fin 1) (y 1) (y 2) := (eq_ix3 y).trans (congrArg (fun u => ix3 u (y 1) (y 2)) hy0)
  exact (congrArg (outsAt0 m c t.val t.isLt).2.1 hy).trans (point_im m c t (y 1) (y 2))

/-! ## The two arrays -/

/-- The filtered real parts as an array [batch, time, frequency]. -/
def reArr (x : SX.Idx → EReal) (w : SW.Idx → EReal) : S8x4096x96.Idx → EReal := fun j => filteredRe x w (j 0) (j 1) (j 2)
/-- The filtered imaginary parts as an array [batch, time, frequency]. -/
def imArr (x : SX.Idx → EReal) (w : SW.Idx → EReal) : S8x4096x96.Idx → EReal := fun j => filteredIm x w (j 0) (j 1) (j 2)

/-- WHAT POINT `t` WRITES BACK through window 4 is block `t` of the filtered real parts. -/
theorem flushed4_eq (c : Dev nD) (t : Fin cfg0.N) :
    (dats m 0 c).flushed 4 t = ((cfg0.win 4).blk t).view.read (Elt Ideal) (reArr (m ((c : Thread nD τ).loc main_arg0)) (m ((c : Thread nD τ).loc main_arg1))) := by
  show (cfg0.win 4).cut (grid0.coords t) ((dats m 0 c).after 4 t) = _
  rw [after0_4]
  obtain ⟨e0, e1, e2⟩ := (idx_facts t).2.2.2.2.1
  funext y
  rw [View.read_apply]
  show (outsAt0 m c t.val t.isLt).1 y = reArr (m ((c : Thread nD τ).loc main_arg0)) (m ((c : Thread nD τ).loc main_arg1)) (((cfg0.win 4).blk t).view.emb y)
  refine (point_re' m c t y).trans ?_
  have hy0 : (y 0).val < 1 := (y 0).isLt
  have hb : batchOf t = (((cfg0.win 4).blk t).view.emb y) 0 :=
    Fin.ext (by show t.val / 4 = win0_4.index t (0 : Fin 3) * 1 + 1 * (y 0).val; omega)
  have hT : timeOf (blockOf t) (y 1) = (((cfg0.win 4).blk t).view.emb y) 1 :=
    Fin.ext (by show t.val % 4 * 1024 + (y 1).val = win0_4.index t (1 : Fin 3) * 1024 + 1 * (y 1).val; omega)
  have hf : y 2 = (((cfg0.win 4).blk t).view.emb y) 2 :=
    Fin.ext (by show (y 2).val = win0_4.index t (2 : Fin 3) * 96 + 1 * (y 2).val; omega)
  show filteredRe (m ((c : Thread nD τ).loc main_arg0)) (m ((c : Thread nD τ).loc main_arg1)) (batchOf t) (timeOf (blockOf t) (y 1)) (y 2)
    = filteredRe (m ((c : Thread nD τ).loc main_arg0)) (m ((c : Thread nD τ).loc main_arg1)) ((((cfg0.win 4).blk t).view.emb y) 0) ((((cfg0.win 4).blk t).view.emb y) 1) ((((cfg0.win 4).blk t).view.emb y) 2)
  rw [← hb, ← hT, ← hf]

/-- An index of the array is in point `t`'s block iff each coordinate is in the block's range on its axis. -/
theorem mem_blk4 (t : Fin cfg0.N) (i : S8x4096x96.Idx) :
    i ∈ ((cfg0.win 4).blk t).view.set ↔ ∀ a : Fin 3, win0_4.index t a * S1x1024x96.size a ≤ (i a).val ∧ (i a).val < win0_4.index t a * S1x1024x96.size a + S1x1024x96.size a := by
  show i ∈ ((View.whole main_v10_0).slice (win0_4.rect t)).set ↔ _
  rw [View.set_slice_whole, Rect.mem_set_unit]
  exact Iff.rfl

/-- Every index of the array is in the block of the point of its batch and time block. -/
theorem cover4 (i : S8x4096x96.Idx) :
    ∃ t : Fin cfg0.N, (cfg0.win 4).flush t = true ∧ i ∈ ((cfg0.win 4).blk t).view.set := by
  have hb : (i 0).val < 8 := (i 0).isLt
  have hT : (i 1).val < 4096 := (i 1).isLt
  have hf : (i 2).val < 96 := (i 2).isLt
  have hlt : (i 0).val * 4 + (i 1).val / 1024 < cfg0.N := by rw [show cfg0.N = 32 from N_0]; omega
  refine ⟨⟨(i 0).val * 4 + (i 1).val / 1024, hlt⟩, flush0_4 _, ?_⟩
  obtain ⟨e0, e1, e2⟩ := (idx_facts ⟨(i 0).val * 4 + (i 1).val / 1024, hlt⟩).2.2.2.2.1
  have e0' : win0_4.index ⟨(i 0).val * 4 + (i 1).val / 1024, hlt⟩ (0 : Fin 3) = ((i 0).val * 4 + (i 1).val / 1024) / 4 := e0
  have e1' : win0_4.index ⟨(i 0).val * 4 + (i 1).val / 1024, hlt⟩ (1 : Fin 3) = ((i 0).val * 4 + (i 1).val / 1024) % 4 := e1
  rw [mem_blk4]
  intro a
  match a with
  | ⟨0, _⟩ =>
    show win0_4.index ⟨(i 0).val * 4 + (i 1).val / 1024, hlt⟩ (0 : Fin 3) * 1 ≤ (i 0).val
      ∧ (i 0).val < win0_4.index ⟨(i 0).val * 4 + (i 1).val / 1024, hlt⟩ (0 : Fin 3) * 1 + 1
    omega
  | ⟨1, _⟩ =>
    show win0_4.index ⟨(i 0).val * 4 + (i 1).val / 1024, hlt⟩ (1 : Fin 3) * 1024 ≤ (i 1).val
      ∧ (i 1).val < win0_4.index ⟨(i 0).val * 4 + (i 1).val / 1024, hlt⟩ (1 : Fin 3) * 1024 + 1024
    omega
  | ⟨2, _⟩ =>
    show win0_4.index ⟨(i 0).val * 4 + (i 1).val / 1024, hlt⟩ (2 : Fin 3) * 96 ≤ (i 2).val
      ∧ (i 2).val < win0_4.index ⟨(i 0).val * 4 + (i 1).val / 1024, hlt⟩ (2 : Fin 3) * 96 + 96
    omega

/-- THE ARRAY after the region: the filtered real parts. -/
theorem final4 (c : Dev nD) : (dats m 0 c).arrAt 4 cfg0.N = reArr (m ((c : Thread nD τ).loc main_arg0)) (m ((c : Thread nD τ).loc main_arg1)) :=
  (dats m 0 c).arrAt_eq_of_cover 4 (reArr (m ((c : Thread nD τ).loc main_arg0)) (m ((c : Thread nD τ).loc main_arg1))) (fun t _ => flushed4_eq m c t) cover4

/-- WHAT POINT `t` WRITES BACK through window 5 is block `t` of the filtered imaginary parts. -/
theorem flushed5_eq (c : Dev nD) (t : Fin cfg0.N) :
    (dats m 0 c).flushed 5 t = ((cfg0.win 5).blk t).view.read (Elt Ideal) (imArr (m ((c : Thread nD τ).loc main_arg0)) (m ((c : Thread nD τ).loc main_arg1))) := by
  show (cfg0.win 5).cut (grid0.coords t) ((dats m 0 c).after 5 t) = _
  rw [after0_5]
  obtain ⟨e0, e1, e2⟩ := (idx_facts t).2.2.2.2.2
  funext y
  rw [View.read_apply]
  show (outsAt0 m c t.val t.isLt).2.1 y = imArr (m ((c : Thread nD τ).loc main_arg0)) (m ((c : Thread nD τ).loc main_arg1)) (((cfg0.win 5).blk t).view.emb y)
  refine (point_im' m c t y).trans ?_
  have hy0 : (y 0).val < 1 := (y 0).isLt
  have hb : batchOf t = (((cfg0.win 5).blk t).view.emb y) 0 :=
    Fin.ext (by show t.val / 4 = win0_5.index t (0 : Fin 3) * 1 + 1 * (y 0).val; omega)
  have hT : timeOf (blockOf t) (y 1) = (((cfg0.win 5).blk t).view.emb y) 1 :=
    Fin.ext (by show t.val % 4 * 1024 + (y 1).val = win0_5.index t (1 : Fin 3) * 1024 + 1 * (y 1).val; omega)
  have hf : y 2 = (((cfg0.win 5).blk t).view.emb y) 2 :=
    Fin.ext (by show (y 2).val = win0_5.index t (2 : Fin 3) * 96 + 1 * (y 2).val; omega)
  show filteredIm (m ((c : Thread nD τ).loc main_arg0)) (m ((c : Thread nD τ).loc main_arg1)) (batchOf t) (timeOf (blockOf t) (y 1)) (y 2)
    = filteredIm (m ((c : Thread nD τ).loc main_arg0)) (m ((c : Thread nD τ).loc main_arg1)) ((((cfg0.win 5).blk t).view.emb y) 0) ((((cfg0.win 5).blk t).view.emb y) 1) ((((cfg0.win 5).blk t).view.emb y) 2)
  rw [← hb, ← hT, ← hf]

/-- An index of the array is in point `t`'s block iff each coordinate is in the block's range on its axis. -/
theorem mem_blk5 (t : Fin cfg0.N) (i : S8x4096x96.Idx) :
    i ∈ ((cfg0.win 5).blk t).view.set ↔ ∀ a : Fin 3, win0_5.index t a * S1x1024x96.size a ≤ (i a).val ∧ (i a).val < win0_5.index t a * S1x1024x96.size a + S1x1024x96.size a := by
  show i ∈ ((View.whole main_v10_1).slice (win0_5.rect t)).set ↔ _
  rw [View.set_slice_whole, Rect.mem_set_unit]
  exact Iff.rfl

/-- Every index of the array is in the block of the point of its batch and time block. -/
theorem cover5 (i : S8x4096x96.Idx) :
    ∃ t : Fin cfg0.N, (cfg0.win 5).flush t = true ∧ i ∈ ((cfg0.win 5).blk t).view.set := by
  have hb : (i 0).val < 8 := (i 0).isLt
  have hT : (i 1).val < 4096 := (i 1).isLt
  have hf : (i 2).val < 96 := (i 2).isLt
  have hlt : (i 0).val * 4 + (i 1).val / 1024 < cfg0.N := by rw [show cfg0.N = 32 from N_0]; omega
  refine ⟨⟨(i 0).val * 4 + (i 1).val / 1024, hlt⟩, flush0_5 _, ?_⟩
  obtain ⟨e0, e1, e2⟩ := (idx_facts ⟨(i 0).val * 4 + (i 1).val / 1024, hlt⟩).2.2.2.2.2
  have e0' : win0_5.index ⟨(i 0).val * 4 + (i 1).val / 1024, hlt⟩ (0 : Fin 3) = ((i 0).val * 4 + (i 1).val / 1024) / 4 := e0
  have e1' : win0_5.index ⟨(i 0).val * 4 + (i 1).val / 1024, hlt⟩ (1 : Fin 3) = ((i 0).val * 4 + (i 1).val / 1024) % 4 := e1
  rw [mem_blk5]
  intro a
  match a with
  | ⟨0, _⟩ =>
    show win0_5.index ⟨(i 0).val * 4 + (i 1).val / 1024, hlt⟩ (0 : Fin 3) * 1 ≤ (i 0).val
      ∧ (i 0).val < win0_5.index ⟨(i 0).val * 4 + (i 1).val / 1024, hlt⟩ (0 : Fin 3) * 1 + 1
    omega
  | ⟨1, _⟩ =>
    show win0_5.index ⟨(i 0).val * 4 + (i 1).val / 1024, hlt⟩ (1 : Fin 3) * 1024 ≤ (i 1).val
      ∧ (i 1).val < win0_5.index ⟨(i 0).val * 4 + (i 1).val / 1024, hlt⟩ (1 : Fin 3) * 1024 + 1024
    omega
  | ⟨2, _⟩ =>
    show win0_5.index ⟨(i 0).val * 4 + (i 1).val / 1024, hlt⟩ (2 : Fin 3) * 96 ≤ (i 2).val
      ∧ (i 2).val < win0_5.index ⟨(i 0).val * 4 + (i 1).val / 1024, hlt⟩ (2 : Fin 3) * 96 + 96
    omega

/-- THE ARRAY after the region: the filtered imaginary parts. -/
theorem final5 (c : Dev nD) : (dats m 0 c).arrAt 5 cfg0.N = imArr (m ((c : Thread nD τ).loc main_arg0)) (m ((c : Thread nD τ).loc main_arg1)) :=
  (dats m 0 c).arrAt_eq_of_cover 5 (imArr (m ((c : Thread nD τ).loc main_arg0)) (m ((c : Thread nD τ).loc main_arg1))) (fun t _ => flushed5_eq m c t) cover5

end Cert.KernelIdeal.FirValue

end
-- ==== Proof.FirTail.lean ====
/-
  After the region: the host joins the two filtered arrays into the low band and the low band to the untouched
  high frequencies.

  The real and imaginary parts [8, 4096, 96] each get a trailing unit axis, are joined along it into
  [8, 4096, 96, 2], and get the unit axis of the spectrogram's layout, [8, 1, 4096, 96, 2]: at (b, 0, T, f, p)
  that is the filtered sample's real part when p = 0 and its imaginary part when p = 1 — the specification's low
  band. The result is the low band joined, along the frequency axis, to the spectrogram's frequencies from 96 up.
-/
import proofs.«130019_j55765855371924_1_alg».proof.Proof.FirBlocks
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.FirValue

open Cert.KernelIdeal Cert.KernelIdeal.Gen Cert.Fir

variable (m : (ℓ : Loc nD τ sig) → Buf (Elt Ideal) ℓ)

/-- The two parts joined and laid out as the low band, read at an index: part 0 is the first array, part 1 the
    second. -/
theorem joined_apply (re im : S8x4096x96.Idx → Elt Ideal .f32) (b : Fin 8) (u : Fin 1) (T : Fin 4096) (f : Fin 96) (p : Fin 2) :
    broadcastInDim S8x1x4096x96x2 ![0, 2, 3, 4] bcast_S8x4096x96x2_S8x1x4096x96x2_0_2_3_4
      (concatenate S8x4096x96x2 3
        [⟨S8x4096x96x1, broadcastInDim S8x4096x96x1 ![0, 1, 2] bcast_S8x4096x96_S8x4096x96x1_0_1_2 re⟩,
          ⟨S8x4096x96x1, broadcastInDim S8x4096x96x1 ![0, 1, 2] bcast_S8x4096x96_S8x4096x96x1_0_1_2 im⟩]
        concatenates_S8x4096x96x1_S8x4096x96x1_S8x4096x96x2_d3) (ix5 b u T f p)
      = if p.val = 0 then re (ix3 b T f) else im (ix3 b T f) := by
  refine (broadcastInDim_apply ![0, 2, 3, 4] bcast_S8x4096x96x2_S8x1x4096x96x2_0_2_3_4 _ (ix5 b u T f p) (ix4 b T f p)
    (fun a => match a with
      | ⟨0, _⟩ => by show b.val = if (8 : Nat) = 1 then 0 else b.val; rw [if_neg (by decide)]
      | ⟨1, _⟩ => by show T.val = if (4096 : Nat) = 1 then 0 else T.val; rw [if_neg (by decide)]
      | ⟨2, _⟩ => by show f.val = if (96 : Nat) = 1 then 0 else f.val; rw [if_neg (by decide)]
      | ⟨3, _⟩ => by show p.val = if (2 : Nat) = 1 then 0 else p.val; rw [if_neg (by decide)])).trans ?_
  have hp := p.isLt
  by_cases hp0 : p.val = 0
  · rw [if_pos hp0]
    refine (concatenate_pair_apply_left (t := S8x4096x96x2) (s₁ := S8x4096x96x1) (s₂ := S8x4096x96x1) (3 : Fin 4) (broadcastInDim S8x4096x96x1 ![0, 1, 2] bcast_S8x4096x96_S8x4096x96x1_0_1_2 re) (broadcastInDim S8x4096x96x1 ![0, 1, 2] bcast_S8x4096x96_S8x4096x96x1_0_1_2 im) concatenates_S8x4096x96x1_S8x4096x96x1_S8x4096x96x2_d3
      (ix4 b T f p) rfl (ix4 b T f (0 : Fin 1)) (fun a => match a with
        | ⟨0, _⟩ => rfl
        | ⟨1, _⟩ => rfl
        | ⟨2, _⟩ => rfl
        | ⟨3, _⟩ => by show (0 : Nat) = p.val; omega)).trans ?_
    exact broadcastInDim_apply ![0, 1, 2] bcast_S8x4096x96_S8x4096x96x1_0_1_2 re (ix4 b T f (0 : Fin 1)) (ix3 b T f)
      (fun a => match a with
        | ⟨0, _⟩ => by show b.val = if (8 : Nat) = 1 then 0 else b.val; rw [if_neg (by decide)]
        | ⟨1, _⟩ => by show T.val = if (4096 : Nat) = 1 then 0 else T.val; rw [if_neg (by decide)]
        | ⟨2, _⟩ => by show f.val = if (96 : Nat) = 1 then 0 else f.val; rw [if_neg (by decide)])
  · rw [if_neg hp0]
    refine (concatenate_pair_apply_right (t := S8x4096x96x2) (s₁ := S8x4096x96x1) (s₂ := S8x4096x96x1) (3 : Fin 4) (broadcastInDim S8x4096x96x1 ![0, 1, 2] bcast_S8x4096x96_S8x4096x96x1_0_1_2 re) (broadcastInDim S8x4096x96x1 ![0, 1, 2] bcast_S8x4096x96_S8x4096x96x1_0_1_2 im) concatenates_S8x4096x96x1_S8x4096x96x1_S8x4096x96x2_d3
      (ix4 b T f p) rfl rfl (ix4 b T f (0 : Fin 1)) (fun a ha => match a, ha with
        | ⟨0, _⟩, _ => rfl
        | ⟨1, _⟩, _ => rfl
        | ⟨2, _⟩, _ => rfl
        | ⟨3, _⟩, h => absurd rfl h) (by show 0 + 1 = p.val; omega)).trans ?_
    exact broadcastInDim_apply ![0, 1, 2] bcast_S8x4096x96_S8x4096x96x1_0_1_2 im (ix4 b T f (0 : Fin 1)) (ix3 b T f)
      (fun a => match a with
        | ⟨0, _⟩ => by show b.val = if (8 : Nat) = 1 then 0 else b.val; rw [if_neg (by decide)]
        | ⟨1, _⟩ => by show T.val = if (4096 : Nat) = 1 then 0 else T.val; rw [if_neg (by decide)]
        | ⟨2, _⟩ => by show f.val = if (96 : Nat) = 1 then 0 else f.val; rw [if_neg (by decide)])

/-- The filtered parts joined and laid out are the specification's low band. -/
theorem joined_eq_low (x : SX.Idx → EReal) (w : SW.Idx → EReal) :
    broadcastInDim S8x1x4096x96x2 ![0, 2, 3, 4] bcast_S8x4096x96x2_S8x1x4096x96x2_0_2_3_4
      (concatenate S8x4096x96x2 3
        [⟨S8x4096x96x1, broadcastInDim S8x4096x96x1 ![0, 1, 2] bcast_S8x4096x96_S8x4096x96x1_0_1_2 (reArr x w)⟩,
          ⟨S8x4096x96x1, broadcastInDim S8x4096x96x1 ![0, 1, 2] bcast_S8x4096x96_S8x4096x96x1_0_1_2 (imArr x w)⟩]
        concatenates_S8x4096x96x1_S8x4096x96x1_S8x4096x96x2_d3) = low x w := by
  funext i
  obtain ⟨b, u, T, f, p, rfl⟩ : ∃ (b : Fin 8) (u : Fin 1) (T : Fin 4096) (f : Fin 96) (p : Fin 2), i = ix5 b u T f p :=
    ⟨i 0, i 1, i 2, i 3, i 4, eq_ix5 i⟩
  exact joined_apply (reArr x w) (imArr x w) b u T f p

/-- The result: the specification's low band joined to the spectrogram's frequencies from 96 up. -/
def result (x : SX.Idx → EReal) (w : SW.Idx → EReal) : S8x1x4096x481x2.Idx → Elt Ideal .f32 :=
  concatenate S8x1x4096x481x2 3
    [⟨S8x1x4096x96x2, low x w⟩,
      ⟨S8x1x4096x385x2, extractStridedSlice S8x1x4096x385x2 ![0, 0, 0, 96, 0] x slices_S8x1x4096x481x2_S8x1x4096x385x2_0_0_0_96_0⟩]
    concatenates_S8x1x4096x96x2_S8x1x4096x385x2_S8x1x4096x481x2_d3

/-- What the host lines after the region leave in the result buffer. -/
theorem tail_eq (c : Dev nD) :
    Pipeline.afterTail₀ cfgs (dats m) 0 (V0 m) [hostOps1] c main_v16
      = result (m ((c : Thread nD τ).loc main_arg0)) (m ((c : Thread nD τ).loc main_arg1)) := by
  have h4 : Pipeline.withArrays (cfgs 0).spec c (V0 m c) (fun w => (dats m 0 c).arrAt w (cfgs 0).N) (Proc.devRef .tc main_v10_0)
      = reArr (m ((c : Thread nD τ).loc main_arg0)) (m ((c : Thread nD τ).loc main_arg1)) :=
    (Pipeline.withArrays_arr spec0 launch0.win.arr_inj c _ _ 4).trans (final4 m c)
  have h5 : Pipeline.withArrays (cfgs 0).spec c (V0 m c) (fun w => (dats m 0 c).arrAt w (cfgs 0).N) (Proc.devRef .tc main_v10_1)
      = imArr (m ((c : Thread nD τ).loc main_arg0)) (m ((c : Thread nD τ).loc main_arg1)) :=
    (Pipeline.withArrays_arr spec0 launch0.win.arr_inj c _ _ 5).trans (final5 m c)
  have h0 : Pipeline.withArrays (cfgs 0).spec c (V0 m c) (fun w => (dats m 0 c).arrAt w (cfgs 0).N) (Proc.devRef .tc main_arg0)
      = (m ((c : Thread nD τ).loc main_arg0)) :=
    (Pipeline.withArrays_of_ne _ c (V0 m c) _ main_arg0 (by exact (by decide : ∀ w, Pipeline.arrRef spec0 w ≠ main_arg0))).trans
      (V_main_arg0 m c)
  unfold Pipeline.afterTail₀
  show StableHlo.after hostOps1 _ (Proc.devRef .tc main_v16) = _
  after_results
  rw [h4, h5, h0, joined_eq_low]
  rfl

/-- The kernel's run, read: the result buffer at `result` of the two arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.FirValue

end
-- ==== Proof.RefRead.lean ====
/-
  The reference program's low band, read index by index.

  The reference gathers, for every time t and tap k, the low-band sample at time t + k of the spectrogram padded with
  four zero rows in front on the time axis, multiplies the gathered windows by the coefficients as complex numbers,
  and sums over the five taps: the real part as the sum of the five differences xr·wr − xi·wi, the imaginary part as
  the sum of the five sums xr·wi + xi·wr, each onto the float constant 0. The two sums are then joined along a new
  trailing axis of two parts. Read at an index (b, 0, t, f, p) this is the causal five-tap filter of the
  specification: the padded array at time t + k is the sample at time t + k − 4, or 0 before time 0.

  The steps, innermost first: the start index of the window is the 32-bit word t + k, which neither wraps nor is
  negative nor is clamped; the gather then reads the padded array at time t + k; the pad reads the low-band slice
  four rows back, or the converted integer 0; the reshapes that drop a trailing unit axis keep the row-major
  position; the sums over the taps are the specification's sums term by term; the join picks the real or the
  imaginary sum by the part coordinate.
-/
import proofs.«130019_j55765855371924_1_alg».proof.Proof.RefReadGen
import proofs.«130019_j55765855371924_1_alg».proof.Proof.FirSpec
import Idealize.ShloMosaic.Lib.ValueIdx
import Idealize.ShloMosaic.Lib.ValueIdxRank6
import Idealize.ShloMosaic.Lib.Pipeline.Value
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The start index of the gathered window

The window's start on the time axis is the 32-bit word "time + tap", formed by two iotas and an addition, with
the usual "add the extent if negative" correction in front. Time is below 4096 and the tap below 5, so the word
is the natural number time + tap: it does not wrap, it is not negative read signed, and it is at most the
padded extent less one, so the clamp of the gather leaves it alone. -/

/-- A natural number below 4101, written as a 32-bit word and read back signed, is itself. -/
theorem word_toNat (n : Nat) (hn : n < 4101) : (BitVec.ofNat 32 n).toInt.toNat = n := by
  have htn : (BitVec.ofNat 32 n).toNat = n := by
    rw [BitVec.toNat_ofNat]; omega
  rw [BitVec.toInt_eq_toNat_cond, htn]
  rw [if_pos (by omega)]
  exact Int.toNat_natCast n

/-- A natural number below 4101, written as a 32-bit word, is not negative read signed. -/
theorem word_not_neg (n : Nat) (hn : n < 4101) : IntOp.cmpi .slt (BitVec.ofNat 32 n) 0#32 = 0#1 := by
  have htn : (BitVec.ofNat 32 n).toNat = n := by
    rw [BitVec.toNat_ofNat]; omega
  have hti : (BitVec.ofNat 32 n).toInt = (n : Int) := by
    rw [BitVec.toInt_eq_toNat_cond, htn, if_pos (by omega)]
  show BitVec.ofBool (decide ((BitVec.ofNat 32 n).toInt < (0#32).toInt)) = 0#1
  rw [hti]
  have : ¬ ((n : Int) < (0#32 : BitVec 32).toInt) := by
    rw [BitVec.toInt_zero]; omega
  rw [decide_eq_false this]
  rfl

/-- The corrected sum of the two iota words is the word of time + tap. -/
theorem start_word (t : Fin 4096) (k : Fin 5) :
    Scalar.select (IntOp.cmpi .slt (IntOp.addi (BitVec.ofNat 32 t.val) (BitVec.ofNat 32 k.val)) 0#32)
      (IntOp.addi (IntOp.addi (BitVec.ofNat 32 t.val) (BitVec.ofNat 32 k.val)) 4100#32)
      (IntOp.addi (BitVec.ofNat 32 t.val) (BitVec.ofNat 32 k.val)) = BitVec.ofNat 32 (t.val + k.val) := by
  have hadd : IntOp.addi (BitVec.ofNat 32 t.val) (BitVec.ofNat 32 k.val) = BitVec.ofNat 32 (t.val + k.val) :=
    (BitVec.ofNat_add t.val k.val).symm
  rw [hadd, word_not_neg _ (by have := t.isLt; have := k.isLt; omega)]
  exact select_zero _ _

/-- The array of start indices at (time, tap, 0) is the word of time + tap. -/
theorem start_index (t : Fin 4096) (k : Fin 5) :
    val_main_v14 (F := Ideal) (ix3 t k (0 : Fin 1)) = BitVec.ofNat 32 (t.val + k.val) := by
  rw [val_main_v14_apply, val_main_v13_apply, val_main_v10_apply, val_main_v12_apply, val_main_v8_apply,
    val_main_v9_apply, val_main_v11_apply, val_main_c_0_apply, val_main_c_1_apply, val_main_v6_apply,
    val_main_v7_apply, val_main_v3_apply, val_main_v5_apply, val_main_v2_apply, val_main_v4_apply]
  exact start_word t k

/-! ## The gather at an index

Result element (b, 0, t, k, f, p) of the gather reads the padded array at (b, 0, t + k, f, p): the time axis is
the one collapsed axis and the one axis the start index names, the other four operand axes are offset axes and
take the result's coordinate. -/

/-- The gather's dimension numbers. -/
abbrev gd : GatherDims S8x1x4100x96x2 S4096x5x1 S8x1x4096x5x96x2 :=
  gather_S8x1x4100x96x2_S4096x5x1_S8x1x4096x5x96x2_0145_2_n_n_2_2_811962

theorem gather_apply {α : Type} (x : S8x1x4100x96x2.Idx → α) (idx : IVec S4096x5x1 32)
    (b : Fin 8) (t : Fin 4096) (k : Fin 5) (f : Fin 96) (p : Fin 2)
    (hidx : idx (ix3 t k (0 : Fin 1)) = BitVec.ofNat 32 (t.val + k.val)) :
    Host.gather gd x idx (ix6 b (0 : Fin 1) t k f p)
      = x (ix5 b (0 : Fin 1) (⟨t.val + k.val, by have := t.isLt; have := k.isLt; omega⟩ : Fin 4100) f p) := by
  have hnat : (BitVec.ofNat 32 (t.val + k.val)).toInt.toNat = t.val + k.val :=
    word_toNat _ (by have := t.isLt; have := k.isLt; omega)
  unfold Host.gather
  congr 1
  funext a
  refine Fin.ext ?_
  show gd.start (ix6 b (0 : Fin 1) t k f p) idx a + gd.batchCoord (ix6 b (0 : Fin 1) t k f p) a
    + gd.offCoord (ix6 b (0 : Fin 1) t k f p) a = _
  rw [GatherDims.batchCoord_eq_zero _ _ _ List.not_mem_nil, Nat.add_zero]
  match a with
  | ⟨0, _⟩ =>
    have hs : gd.start (ix6 b (0 : Fin 1) t k f p) idx ⟨0, by decide⟩ = 0 := by
      unfold GatherDims.start; rw [dif_neg (by decide)]
    have ho : gd.offCoord (ix6 b (0 : Fin 1) t k f p) ⟨0, by decide⟩ = b.val := by
      unfold GatherDims.offCoord; rw [dif_pos (by decide)]; rfl
    rw [hs, ho]; exact Nat.zero_add _
  | ⟨1, _⟩ =>
    have hs : gd.start (ix6 b (0 : Fin 1) t k f p) idx ⟨1, by decide⟩ = 0 := by
      unfold GatherDims.start; rw [dif_neg (by decide)]
    have ho : gd.offCoord (ix6 b (0 : Fin 1) t k f p) ⟨1, by decide⟩ = 0 := by
      unfold GatherDims.offCoord; rw [dif_pos (by decide)]; rfl
    rw [hs, ho]; rfl
  | ⟨2, _⟩ =>
    have ho : gd.offCoord (ix6 b (0 : Fin 1) t k f p) ⟨2, by decide⟩ = 0 :=
      GatherDims.offCoord_eq_zero _ _ _ (by decide)
    have hs : gd.start (ix6 b (0 : Fin 1) t k f p) idx ⟨2, by decide⟩ = t.val + k.val := by
      unfold GatherDims.start
      rw [dif_pos (show (⟨2, by decide⟩ : Fin 5) ∈ gd.startIndexMap from List.mem_singleton.mpr rfl)]
      have hsi : gd.siIdx (ix6 b (0 : Fin 1) t k f p) ⟨List.idxOf (⟨2, by decide⟩ : Fin 5) gd.startIndexMap,
          List.idxOf_lt_length_iff.2 (List.mem_singleton.mpr rfl)⟩ = ix3 t k (0 : Fin 1) := by
        funext c; refine Fin.ext ?_
        match c with
        | ⟨0, _⟩ => rfl
        | ⟨1, _⟩ => rfl
        | ⟨2, _⟩ => rfl
      rw [hsi, hidx, hnat]
      show min (t.val + k.val) (4100 - 1) = t.val + k.val
      have := t.isLt; have := k.isLt; omega
    rw [hs, ho]; rfl
  | ⟨3, _⟩ =>
    have hs : gd.start (ix6 b (0 : Fin 1) t k f p) idx ⟨3, by decide⟩ = 0 := by
      unfold GatherDims.start; rw [dif_neg (by decide)]
    have ho : gd.offCoord (ix6 b (0 : Fin 1) t k f p) ⟨3, by decide⟩ = f.val := by
      unfold GatherDims.offCoord; rw [dif_pos (by decide)]; rfl
    rw [hs, ho]; exact Nat.zero_add _
  | ⟨4, _⟩ =>
    have hs : gd.start (ix6 b (0 : Fin 1) t k f p) idx ⟨4, by decide⟩ = 0 := by
      unfold GatherDims.start; rw [dif_neg (by decide)]
    have ho : gd.offCoord (ix6 b (0 : Fin 1) t k f p) ⟨4, by decide⟩ = p.val := by
      unfold GatherDims.offCoord; rw [dif_pos (by decide)]; rfl
    rw [hs, ho]; exact Nat.zero_add _

/-- The gathered windows at (b, 0, t, k, f, p): the padded array at time t + k. -/
theorem val_main_v15_at (x0 : (⟨S8x1x4096x481x2, .f32⟩ : BufTy).Contents (Elt Ideal))
    (b : Fin 8) (t : Fin 4096) (k : Fin 5) (f : Fin 96) (p : Fin 2) :
    val_main_v15 (F := Ideal) x0 (ix6 b (0 : Fin 1) t k f p)
      = val_main_v1 (F := Ideal) x0
          (ix5 b (0 : Fin 1) (⟨t.val + k.val, by have := t.isLt; have := k.isLt; omega⟩ : Fin 4100) f p) := by
  unfold val_main_v15
  generalize val_main_v1 (F := Ideal) x0 = y
  exact gather_apply y _ b t k f p (start_index t k)

/-! ## The pad at an index

The padded array has four rows of the padding value in front on the time axis, so at time t + k it holds the
low band's row t + k - 4 when t + k is at least 4 and the padding value before; the padding value is the integer
0 converted, which is 0. -/

theorem pad_front_apply {α : Type} (x : S8x1x4096x96x2.Idx → α) (v : S_.Idx → α)
    (hp : S8x1x4096x96x2.Pads (![0, 0, 4, 0, 0] : Fin 5 → Nat) ![0, 0, 0, 0, 0] ![0, 0, 0, 0, 0] S8x1x4100x96x2)
    (hu : 0 < S_.numel) (b : Fin 8) (t : Fin 4096) (k : Fin 5) (f : Fin 96) (p : Fin 2) :
    pad S8x1x4100x96x2 ![0, 0, 4, 0, 0] ![0, 0, 0, 0, 0] ![0, 0, 0, 0, 0] x v hp hu
        (ix5 b (0 : Fin 1) (⟨t.val + k.val, by have := t.isLt; have := k.isLt; omega⟩ : Fin 4100) f p)
      = if h : 4 ≤ t.val + k.val then
          x (ix5 b (0 : Fin 1) (⟨t.val + k.val - 4, by have := t.isLt; have := k.isLt; omega⟩ : Fin 4096) f p)
        else v (Shape.Idx.first hu) := by
  by_cases h : 4 ≤ t.val + k.val
  · rw [dif_pos h]
    exact pad_apply_of_inside _ _ _ x v hp hu _
      (ix5 b (0 : Fin 1) (⟨t.val + k.val - 4, by have := t.isLt; have := k.isLt; omega⟩ : Fin 4096) f p)
      (fun a => match a with
        | ⟨0, _⟩ => by show b.val = 0 + b.val * (0 + 1); omega
        | ⟨1, _⟩ => by show (0 : Nat) = 0 + 0 * (0 + 1); omega
        | ⟨2, _⟩ => by show t.val + k.val = 4 + (t.val + k.val - 4) * (0 + 1); omega
        | ⟨3, _⟩ => by show f.val = 0 + f.val * (0 + 1); omega
        | ⟨4, _⟩ => by show p.val = 0 + p.val * (0 + 1); omega)
  · rw [dif_neg h]
    exact pad_apply_of_not_inside _ _ _ x v hp hu _ (⟨2, by decide⟩ : Fin 5) (by
      intro hin
      have h1 : 4 ≤ t.val + k.val := hin.1
      exact h h1)

/-- The integer 0 converted to a float is 0. -/
theorem sitofp_zero : (FloatOps.sitofp (F := Ideal) .f32 (0#32 : BitVec 32)) = (0 : EReal) := by
  show (((0#32 : BitVec 32).toInt : ℝ) : EReal) = 0
  rw [BitVec.toInt_zero]; simp

/-- The padded array at time t + k is the sample tap k meets at time t. -/
theorem val_main_v1_at (x0 : (⟨S8x1x4096x481x2, .f32⟩ : BufTy).Contents (Elt Ideal))
    (b : Fin 8) (t : Fin 4096) (k : Fin 5) (f : Fin 96) (p : Fin 2) :
    val_main_v1 (F := Ideal) x0
        (ix5 b (0 : Fin 1) (⟨t.val + k.val, by have := t.isLt; have := k.isLt; omega⟩ : Fin 4100) f p)
      = Cert.Fir.tap x0 b t f p k := by
  unfold val_main_v1
  rw [pad_front_apply]
  unfold Cert.Fir.tap
  by_cases h : 4 ≤ t.val + k.val
  · rw [dif_pos h, dif_pos h, val_main_v0_apply]
    exact congrArg x0 (funext fun a => match a with
      | ⟨0, _⟩ => rfl
      | ⟨1, _⟩ => rfl
      | ⟨2, _⟩ => rfl
      | ⟨3, _⟩ => rfl
      | ⟨4, _⟩ => rfl)
  · rw [dif_neg h, dif_neg h, val_main_call0_v0_apply, val_main_c_apply]
    exact sitofp_zero

/-! ## Dropping the trailing unit axis

The four reshapes [8,1,4096,96,5,1] → [8,1,4096,96,5] keep the row-major position: the index with a 0 appended. -/

theorem shapeCast_dropLast {α : Type} (v : S8x1x4096x96x5x1.Idx → α)
    (h : S8x1x4096x96x5x1.ShapeCasts S8x1x4096x96x5) (b : Fin 8) (t : Fin 4096) (f : Fin 96) (k : Fin 5) :
    shapeCast S8x1x4096x96x5 v h (ix5 b (0 : Fin 1) t f k) = v (ix6 b (0 : Fin 1) t f k (0 : Fin 1)) := by
  refine shapeCast_apply v h _ _ ?_
  rw [Shape.rowMajor_val_six, Shape.rowMajor_val_five]
  show (((((b.val * 1 + 0) * 4096 + t.val) * 96 + f.val) * 5 + k.val) * 1 + 0)
     = ((((b.val * 1 + 0) * 4096 + t.val) * 96 + f.val) * 5 + k.val)
  omega

/-! ## The four factors of the products -/

/-- The window's real part at (b, 0, t, f, k). -/
theorem val_main_v20_at (x0 : (⟨S8x1x4096x481x2, .f32⟩ : BufTy).Contents (Elt Ideal))
    (b : Fin 8) (t : Fin 4096) (f : Fin 96) (k : Fin 5) :
    val_main_v20 (F := Ideal) x0 (ix5 b (0 : Fin 1) t f k) = Cert.Fir.tap x0 b t f 0 k := by
  unfold val_main_v20
  rw [shapeCast_dropLast, val_main_v19_apply, val_main_v16_apply]
  have hi : idx_main_v16 (idx_main_v19 (ix6 b (0 : Fin 1) t f k (0 : Fin 1)))
      = ix6 b (0 : Fin 1) t k f (0 : Fin 2) := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hi, val_main_v15_at, val_main_v1_at]

/-- The window's imaginary part at (b, 0, t, f, k). -/
theorem val_main_v22_at (x0 : (⟨S8x1x4096x481x2, .f32⟩ : BufTy).Contents (Elt Ideal))
    (b : Fin 8) (t : Fin 4096) (f : Fin 96) (k : Fin 5) :
    val_main_v22 (F := Ideal) x0 (ix5 b (0 : Fin 1) t f k) = Cert.Fir.tap x0 b t f 1 k := by
  unfold val_main_v22
  rw [shapeCast_dropLast, val_main_v21_apply, val_main_v16_apply]
  have hi : idx_main_v16 (idx_main_v21 (ix6 b (0 : Fin 1) t f k (0 : Fin 1)))
      = ix6 b (0 : Fin 1) t k f (1 : Fin 2) := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hi, val_main_v15_at, val_main_v1_at]

/-- The coefficient's real part at (b, 0, t, f, k). -/
theorem val_main_v24_at (x1 : (⟨S8x5x4096x96x2, .f32⟩ : BufTy).Contents (Elt Ideal))
    (b : Fin 8) (t : Fin 4096) (f : Fin 96) (k : Fin 5) :
    val_main_v24 (F := Ideal) x1 (ix5 b (0 : Fin 1) t f k) = Cert.Fir.coef x1 b t f 0 k := by
  unfold val_main_v24
  rw [shapeCast_dropLast, val_main_v23_apply, val_main_v18_apply, val_main_v17_apply]
  unfold Cert.Fir.coef
  exact congrArg x1 (funext fun a => match a with
    | ⟨0, _⟩ => rfl
    | ⟨1, _⟩ => rfl
    | ⟨2, _⟩ => rfl
    | ⟨3, _⟩ => rfl
    | ⟨4, _⟩ => rfl)

/-- The coefficient's imaginary part at (b, 0, t, f, k). -/
theorem val_main_v26_at (x1 : (⟨S8x5x4096x96x2, .f32⟩ : BufTy).Contents (Elt Ideal))
    (b : Fin 8) (t : Fin 4096) (f : Fin 96) (k : Fin 5) :
    val_main_v26 (F := Ideal) x1 (ix5 b (0 : Fin 1) t f k) = Cert.Fir.coef x1 b t f 1 k := by
  unfold val_main_v26
  rw [shapeCast_dropLast, val_main_v25_apply, val_main_v18_apply, val_main_v17_apply]
  unfold Cert.Fir.coef
  exact congrArg x1 (funext fun a => match a with
    | ⟨0, _⟩ => rfl
    | ⟨1, _⟩ => rfl
    | ⟨2, _⟩ => rfl
    | ⟨3, _⟩ => rfl
    | ⟨4, _⟩ => rfl)

/-! ## The two sums over the taps -/

/-- The float constant 0 is 0. -/
theorem ofBits_zero : (FloatOps.ofBits (F := Ideal) .f32 0x00000000#32) = (0 : EReal) := Ideal.ofBits_zero_f32

/-- The sum of the five differences of products is the filtered sample's real part. -/
theorem val_main_v30_at (x0 : (⟨S8x1x4096x481x2, .f32⟩ : BufTy).Contents (Elt Ideal))
    (x1 : (⟨S8x5x4096x96x2, .f32⟩ : BufTy).Contents (Elt Ideal)) (b : Fin 8) (t : Fin 4096) (f : Fin 96) :
    val_main_v30 (F := Ideal) x0 x1 (ix4 b (0 : Fin 1) t f) = Cert.Fir.filteredRe x0 x1 b t f := by
  rw [val_main_v30_apply, val_main_cst_apply, ofBits_zero, zero_add]
  unfold Cert.Fir.filteredRe
  refine Finset.sum_congr rfl fun k _ => ?_
  have hi : idx_main_v30 (ix4 b (0 : Fin 1) t f) k = ix5 b (0 : Fin 1) t f k := by
    funext a
    match a with
    | ⟨0, _⟩ => rfl
    | ⟨1, _⟩ => rfl
    | ⟨2, _⟩ => rfl
    | ⟨3, _⟩ => rfl
    | ⟨4, _⟩ => rfl
  rw [hi, val_main_v29_apply, val_main_v27_apply, val_main_v28_apply, val_main_v20_at, val_main_v22_at,
    val_main_v24_at, val_main_v26_at]
  rfl

/-- The sum of the five sums of products is the filtered sample's imaginary part. -/
theorem val_main_v34_at (x0 : (⟨S8x1x4096x481x2, .f32⟩ : BufTy).Contents (Elt Ideal))
    (x1 : (⟨S8x5x4096x96x2, .f32⟩ : BufTy).Contents (Elt Ideal)) (b : Fin 8) (t : Fin 4096) (f : Fin 96) :
    val_main_v34 (F := Ideal) x0 x1 (ix4 b (0 : Fin 1) t f) = Cert.Fir.filteredIm x0 x1 b t f := by
  rw [val_main_v34_apply, val_main_cst_2_apply, ofBits_zero, zero_add]
  unfold Cert.Fir.filteredIm
  refine Finset.sum_congr rfl fun k _ => ?_
  have hi : idx_main_v34 (ix4 b (0 : Fin 1) t f) k = ix5 b (0 : Fin 1) t f k := by
    funext a
    match a with
    | ⟨0, _⟩ => rfl
    | ⟨1, _⟩ => rfl
    | ⟨2, _⟩ => rfl
    | ⟨3, _⟩ => rfl
    | ⟨4, _⟩ => rfl
  rw [hi, val_main_v33_apply, val_main_v31_apply, val_main_v32_apply, val_main_v20_at, val_main_v22_at,
    val_main_v24_at, val_main_v26_at]
  rfl

/-! ## The low band

The two sums, each given a trailing unit axis, are joined along it: part 0 reads the first, part 1 the second. -/

theorem low_eq (x0 : Cert.Fir.SX.Idx → EReal) (x1 : Cert.Fir.SW.Idx → EReal) :
    Cert.ReferenceIdeal.Read.val_main_v37 (F := Ideal) x0 x1 = Cert.Fir.low x0 x1 := by
  funext i
  obtain ⟨b, o, t, f, p, rfl⟩ : ∃ (b : Fin 8) (o : Fin 1) (t : Fin 4096) (f : Fin 96) (p : Fin 2),
      i = ix5 b o t f p := ⟨i 0, i 1, i 2, i 3, i 4, eq_ix5 i⟩
  obtain rfl : o = 0 := Subsingleton.elim _ _
  unfold val_main_v37
  match p with
  | ⟨0, hp⟩ =>
    rw [show Cert.Fir.low x0 x1 (ix5 b (0 : Fin 1) t f (⟨0, hp⟩ : Fin 2)) = Cert.Fir.filteredRe x0 x1 b t f from
      if_pos rfl]
    rw [concatenate_pair_apply_left (4 : Fin 5) (val_main_v35 (F := Ideal) x0 x1) (val_main_v36 (F := Ideal) x0 x1)
      concatenates_S8x1x4096x96x1_S8x1x4096x96x1_S8x1x4096x96x2_d4 (ix5 b (0 : Fin 1) t f (⟨0, hp⟩ : Fin 2)) rfl
      (ix5 b (0 : Fin 1) t f (0 : Fin 1)) (fun c => match c with
        | ⟨0, _⟩ => rfl
        | ⟨1, _⟩ => rfl
        | ⟨2, _⟩ => rfl
        | ⟨3, _⟩ => rfl
        | ⟨4, _⟩ => rfl)]
    rw [val_main_v35_apply]
    have hi : idx_main_v35 (ix5 b (0 : Fin 1) t f (0 : Fin 1)) = ix4 b (0 : Fin 1) t f := by
      funext a
      match a with
      | ⟨0, _⟩ => rfl
      | ⟨1, _⟩ => rfl
      | ⟨2, _⟩ => rfl
      | ⟨3, _⟩ => rfl
    rw [hi, val_main_v30_at]
  | ⟨1, hp⟩ =>
    rw [show Cert.Fir.low x0 x1 (ix5 b (0 : Fin 1) t f (⟨1, hp⟩ : Fin 2)) = Cert.Fir.filteredIm x0 x1 b t f from
      if_neg (show ¬ (1 : Nat) = 0 from Nat.one_ne_zero)]
    rw [concatenate_pair_apply_right (4 : Fin 5) (val_main_v35 (F := Ideal) x0 x1) (val_main_v36 (F := Ideal) x0 x1)
      concatenates_S8x1x4096x96x1_S8x1x4096x96x1_S8x1x4096x96x2_d4 (ix5 b (0 : Fin 1) t f (⟨1, hp⟩ : Fin 2)) rfl rfl
      (ix5 b (0 : Fin 1) t f (0 : Fin 1)) (fun c hc => match c, hc with
        | ⟨0, _⟩, _ => rfl
        | ⟨1, _⟩, _ => rfl
        | ⟨2, _⟩, _ => rfl
        | ⟨3, _⟩, _ => rfl
        | ⟨4, _⟩, hc => absurd rfl hc) rfl]
    rw [val_main_v36_apply]
    have hi : idx_main_v36 (ix5 b (0 : Fin 1) t f (0 : Fin 1)) = ix4 b (0 : Fin 1) t f := by
      funext a
      match a with
      | ⟨0, _⟩ => rfl
      | ⟨1, _⟩ => rfl
      | ⟨2, _⟩ => rfl
      | ⟨3, _⟩ => rfl
    rw [hi, val_main_v34_at]

end Cert.ReferenceIdeal.RefValue

end
-- ==== Proof.RefRun.lean ====
/-
  The reference program's run, in two stages.

  The program is a straight line of 46 host operations. What a buffer holds after a line of operations is a fold of the
  operations' results over the contents the line starts from, and the fold of a concatenation is the fold of the
  second line over the fold of the first. The first line (the 23 operations through the second transpose) is read
  for ANY starting contents: it leaves the gathered, transposed windows and the transposed coefficients, each the
  stage function of its argument, and the two arguments as they were. The second line (the remaining 23) is read for
  ANY contents that hold those two values and the first argument: it leaves the result at the stage function of
  the two arguments, and the arguments as they were. Between the two the contents are a variable, so the window
  computation, which four later operations read, is never copied into the second stage's terms.
-/
import proofs.«130019_j55765855371924_1_alg».proof.Proof.RefReadGen
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first 23 operations: through the transposed windows and the transposed coefficients. -/
abbrev ops₁ : List (HloOp τ sig (Elt F)) :=
  [ unary main_arg0 main_v0 ((extractStridedSlice S8x1x4096x96x2 ![0, 0, 0, 0, 0] · slices_S8x1x4096x481x2_S8x1x4096x96x2_0_0_0_0_0) : (⟨S8x1x4096x481x2, .f32⟩ : BufTy).Contents (Elt F) → (⟨S8x1x4096x96x2, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x1x4096x96x2, .f32⟩) main_v0) (TRef.of (T := ⟨S_, .f32⟩) main_call0_v0) (TRef.of (T := ⟨S8x1x4100x96x2, .f32⟩) main_v1) (fun x v => pad S8x1x4100x96x2 ![0, 0, 4, 0, 0] ![0, 0, 0, 0, 0] ![0, 0, 0, 0, 0] x v pads_S8x1x4096x96x2_S8x1x4100x96x2_000_000_400_000_000 h_S_),
    nullary main_v2 (iotaInDim S4096 32 0),
    unary main_v2 main_v3 (broadcastInDim S4096x1 ![0] bcast_S4096_S4096x1_0 : (⟨S4096, .i32⟩ : BufTy).Contents (Elt F) → (⟨S4096x1, .i32⟩ : BufTy).Contents (Elt F)),
    nullary main_v4 (iotaInDim S5 32 0),
    unary main_v4 main_v5 (broadcastInDim S1x5 ![1] bcast_S5_S1x5_1 : (⟨S5, .i32⟩ : BufTy).Contents (Elt F) → (⟨S1x5, .i32⟩ : BufTy).Contents (Elt F)),
    unary main_v3 main_v6 (broadcastInDim S4096x5 ![0, 1] bcast_S4096x1_S4096x5_0_1 : (⟨S4096x1, .i32⟩ : BufTy).Contents (Elt F) → (⟨S4096x5, .i32⟩ : BufTy).Contents (Elt F)),
    unary main_v5 main_v7 (broadcastInDim S4096x5 ![0, 1] bcast_S1x5_S4096x5_0_1 : (⟨S1x5, .i32⟩ : BufTy).Contents (Elt F) → (⟨S4096x5, .i32⟩ : BufTy).Contents (Elt F)),
    binary main_v6 main_v7 main_v8 (addi : (⟨S4096x5, .i32⟩ : BufTy).Contents (Elt F) → (⟨S4096x5, .i32⟩ : BufTy).Contents (Elt F) → (⟨S4096x5, .i32⟩ : BufTy).Contents (Elt F)),
    nullary main_c_0 (constantI S_ 32 0#32),
    unary main_c_0 main_v9 (broadcastInDim S4096x5 ![] bcast_S_S4096x5 : (⟨S_, .i32⟩ : BufTy).Contents (Elt F) → (⟨S4096x5, .i32⟩ : BufTy).Contents (Elt F)),
    binary main_v8 main_v9 main_v10 (cmpi .slt : (⟨S4096x5, .i32⟩ : BufTy).Contents (Elt F) → (⟨S4096x5, .i32⟩ : BufTy).Contents (Elt F) → (⟨S4096x5, .i1⟩ : BufTy).Contents (Elt F)),
    nullary main_c_1 (constantI S_ 32 4100#32),
    unary main_c_1 main_v11 (broadcastInDim S4096x5 ![] bcast_S_S4096x5 : (⟨S_, .i32⟩ : BufTy).Contents (Elt F) → (⟨S4096x5, .i32⟩ : BufTy).Contents (Elt F)),
    binary main_v8 main_v11 main_v12 (addi : (⟨S4096x5, .i32⟩ : BufTy).Contents (Elt F) → (⟨S4096x5, .i32⟩ : BufTy).Contents (Elt F) → (⟨S4096x5, .i32⟩ : BufTy).Contents (Elt F)),
    ternary main_v10 main_v12 main_v8 main_v13 (select : (⟨S4096x5, .i1⟩ : BufTy).Contents (Elt F) → (⟨S4096x5, .i32⟩ : BufTy).Contents (Elt F) → (⟨S4096x5, .i32⟩ : BufTy).Contents (Elt F) → (⟨S4096x5, .i32⟩ : BufTy).Contents (Elt F)),
    unary main_v13 main_v14 (broadcastInDim S4096x5x1 ![0, 1] bcast_S4096x5_S4096x5x1_0_1 : (⟨S4096x5, .i32⟩ : BufTy).Contents (Elt F) → (⟨S4096x5x1, .i32⟩ : BufTy).Contents (Elt F)),
    binary main_v1 main_v14 main_v15 ((fun x i => Host.gather gather_S8x1x4100x96x2_S4096x5x1_S8x1x4096x5x96x2_0145_2_n_n_2_2_811962 x i) : (⟨S8x1x4100x96x2, .f32⟩ : BufTy).Contents (Elt F) → (⟨S4096x5x1, .i32⟩ : BufTy).Contents (Elt F) → (⟨S8x1x4096x5x96x2, .f32⟩ : BufTy).Contents (Elt F)),
    unary main_v15 main_v16 ((transpose S8x1x4096x96x5x2 [0, 1, 2, 4, 3, 5] · transposes_S8x1x4096x5x96x2_S8x1x4096x96x5x2_0_1_2_4_3_5) : (⟨S8x1x4096x5x96x2, .f32⟩ : BufTy).Contents (Elt F) → (⟨S8x1x4096x96x5x2, .f32⟩ : BufTy).Contents (Elt F)),
    unary main_arg1 main_v17 (broadcastInDim S8x1x5x4096x96x2 ![0, 2, 3, 4, 5] bcast_S8x5x4096x96x2_S8x1x5x4096x96x2_0_2_3_4_5 : (⟨S8x5x4096x96x2, .f32⟩ : BufTy).Contents (Elt F) → (⟨S8x1x5x4096x96x2, .f32⟩ : BufTy).Contents (Elt F)),
    unary main_v17 main_v18 ((transpose S8x1x4096x96x5x2 [0, 1, 3, 4, 2, 5] · transposes_S8x1x5x4096x96x2_S8x1x4096x96x5x2_0_1_3_4_2_5) : (⟨S8x1x5x4096x96x2, .f32⟩ : BufTy).Contents (Elt F) → (⟨S8x1x4096x96x5x2, .f32⟩ : BufTy).Contents (Elt F)) ]

/-- The remaining 23 operations: the products, the two sums over the taps, and the two joins. -/
abbrev ops₂ : List (HloOp τ sig (Elt F)) :=
  [ unary main_v16 main_v19 ((extractStridedSlice S8x1x4096x96x5x1 ![0, 0, 0, 0, 0, 0] · slices_S8x1x4096x96x5x2_S8x1x4096x96x5x1_0_0_0_0_0_0) : (⟨S8x1x4096x96x5x2, .f32⟩ : BufTy).Contents (Elt F) → (⟨S8x1x4096x96x5x1, .f32⟩ : BufTy).Contents (Elt F)),
    reshape main_v19 main_v20 rfl shapeCasts_S8x1x4096x96x5x1_S8x1x4096x96x5,
    unary main_v16 main_v21 ((extractStridedSlice S8x1x4096x96x5x1 ![0, 0, 0, 0, 0, 1] · slices_S8x1x4096x96x5x2_S8x1x4096x96x5x1_0_0_0_0_0_1) : (⟨S8x1x4096x96x5x2, .f32⟩ : BufTy).Contents (Elt F) → (⟨S8x1x4096x96x5x1, .f32⟩ : BufTy).Contents (Elt F)),
    reshape main_v21 main_v22 rfl shapeCasts_S8x1x4096x96x5x1_S8x1x4096x96x5,
    unary main_v18 main_v23 ((extractStridedSlice S8x1x4096x96x5x1 ![0, 0, 0, 0, 0, 0] · slices_S8x1x4096x96x5x2_S8x1x4096x96x5x1_0_0_0_0_0_0) : (⟨S8x1x4096x96x5x2, .f32⟩ : BufTy).Contents (Elt F) → (⟨S8x1x4096x96x5x1, .f32⟩ : BufTy).Contents (Elt F)),
    reshape main_v23 main_v24 rfl shapeCasts_S8x1x4096x96x5x1_S8x1x4096x96x5,
    unary main_v18 main_v25 ((extractStridedSlice S8x1x4096x96x5x1 ![0, 0, 0, 0, 0, 1] · slices_S8x1x4096x96x5x2_S8x1x4096x96x5x1_0_0_0_0_0_1) : (⟨S8x1x4096x96x5x2, .f32⟩ : BufTy).Contents (Elt F) → (⟨S8x1x4096x96x5x1, .f32⟩ : BufTy).Contents (Elt F)),
    reshape main_v25 main_v26 rfl shapeCasts_S8x1x4096x96x5x1_S8x1x4096x96x5,
    binary main_v20 main_v24 main_v27 (mulf : (⟨S8x1x4096x96x5, .f32⟩ : BufTy).Contents (Elt F) → (⟨S8x1x4096x96x5, .f32⟩ : BufTy).Contents (Elt F) → (⟨S8x1x4096x96x5, .f32⟩ : BufTy).Contents (Elt F)),
    binary main_v22 main_v26 main_v28 (mulf : (⟨S8x1x4096x96x5, .f32⟩ : BufTy).Contents (Elt F) → (⟨S8x1x4096x96x5, .f32⟩ : BufTy).Contents (Elt F) → (⟨S8x1x4096x96x5, .f32⟩ : BufTy).Contents (Elt F)),
    binary main_v27 main_v28 main_v29 (subf : (⟨S8x1x4096x96x5, .f32⟩ : BufTy).Contents (Elt F) → (⟨S8x1x4096x96x5, .f32⟩ : BufTy).Contents (Elt F) → (⟨S8x1x4096x96x5, .f32⟩ : BufTy).Contents (Elt F)),
    nullary main_cst (constant S_ .f32 0x00000000#32),
    binary main_v29 main_cst main_v30 ((fun x v => Host.reduceAdd x v reducesTo_S8x1x4096x96x5_S8x1x4096x96_d4 h_S_) : (⟨S8x1x4096x96x5, .f32⟩ : BufTy).Contents (Elt F) → (⟨S_, .f32⟩ : BufTy).Contents (Elt F) → (⟨S8x1x4096x96, .f32⟩ : BufTy).Contents (Elt F)),
    binary main_v20 main_v26 main_v31 (mulf : (⟨S8x1x4096x96x5, .f32⟩ : BufTy).Contents (Elt F) → (⟨S8x1x4096x96x5, .f32⟩ : BufTy).Contents (Elt F) → (⟨S8x1x4096x96x5, .f32⟩ : BufTy).Contents (Elt F)),
    binary main_v22 main_v24 main_v32 (mulf : (⟨S8x1x4096x96x5, .f32⟩ : BufTy).Contents (Elt F) → (⟨S8x1x4096x96x5, .f32⟩ : BufTy).Contents (Elt F) → (⟨S8x1x4096x96x5, .f32⟩ : BufTy).Contents (Elt F)),
    binary main_v31 main_v32 main_v33 (addf : (⟨S8x1x4096x96x5, .f32⟩ : BufTy).Contents (Elt F) → (⟨S8x1x4096x96x5, .f32⟩ : BufTy).Contents (Elt F) → (⟨S8x1x4096x96x5, .f32⟩ : BufTy).Contents (Elt F)),
    nullary main_cst_2 (constant S_ .f32 0x00000000#32),
    binary main_v33 main_cst_2 main_v34 ((fun x v => Host.reduceAdd x v reducesTo_S8x1x4096x96x5_S8x1x4096x96_d4 h_S_) : (⟨S8x1x4096x96x5, .f32⟩ : BufTy).Contents (Elt F) → (⟨S_, .f32⟩ : BufTy).Contents (Elt F) → (⟨S8x1x4096x96, .f32⟩ : BufTy).Contents (Elt F)),
    unary main_v30 main_v35 (broadcastInDim S8x1x4096x96x1 ![0, 1, 2, 3] bcast_S8x1x4096x96_S8x1x4096x96x1_0_1_2_3 : (⟨S8x1x4096x96, .f32⟩ : BufTy).Contents (Elt F) → (⟨S8x1x4096x96x1, .f32⟩ : BufTy).Contents (Elt F)),
    unary main_v34 main_v36 (broadcastInDim S8x1x4096x96x1 ![0, 1, 2, 3] bcast_S8x1x4096x96_S8x1x4096x96x1_0_1_2_3 : (⟨S8x1x4096x96, .f32⟩ : BufTy).Contents (Elt F) → (⟨S8x1x4096x96x1, .f32⟩ : BufTy).Contents (Elt F)),
    binary main_v35 main_v36 main_v37 ((fun a b => concatenate S8x1x4096x96x2 4 [⟨S8x1x4096x96x1, a⟩, ⟨S8x1x4096x96x1, b⟩] concatenates_S8x1x4096x96x1_S8x1x4096x96x1_S8x1x4096x96x2_d4) : (⟨S8x1x4096x96x1, .f32⟩ : BufTy).Contents (Elt F) → (⟨S8x1x4096x96x1, .f32⟩ : BufTy).Contents (Elt F) → (⟨S8x1x4096x96x2, .f32⟩ : BufTy).Contents (Elt F)),
    unary main_arg0 main_v38 ((extractStridedSlice S8x1x4096x385x2 ![0, 0, 0, 96, 0] · slices_S8x1x4096x481x2_S8x1x4096x385x2_0_0_0_96_0) : (⟨S8x1x4096x481x2, .f32⟩ : BufTy).Contents (Elt F) → (⟨S8x1x4096x385x2, .f32⟩ : BufTy).Contents (Elt F)),
    binary main_v37 main_v38 main_v39 ((fun a b => concatenate S8x1x4096x481x2 3 [⟨S8x1x4096x96x2, a⟩, ⟨S8x1x4096x385x2, b⟩] concatenates_S8x1x4096x96x2_S8x1x4096x385x2_S8x1x4096x481x2_d3) : (⟨S8x1x4096x96x2, .f32⟩ : BufTy).Contents (Elt F) → (⟨S8x1x4096x385x2, .f32⟩ : BufTy).Contents (Elt F) → (⟨S8x1x4096x481x2, .f32⟩ : BufTy).Contents (Elt F)) ]

set_option maxRecDepth 8192 in
theorem main_eq (c : Dev nD) : main (F := F) c = seq (ops₁ ++ ops₂) := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub₁ : (ops₁ : List (HloOp τ sig (Elt F))).Forall fun op => op.bufs ⊆ tcRefs τ sig :=
  ⟨unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub ..⟩

set_option maxRecDepth 8192 in
theorem ops_sub₂ : (ops₂ : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., binary_bufs_sub .., binary_bufs_sub .., binary_bufs_sub .., binary_bufs_sub .., nullary_bufs_sub .., binary_bufs_sub .., unary_bufs_sub .., unary_bufs_sub .., binary_bufs_sub .., unary_bufs_sub .., binary_bufs_sub ..⟩

theorem ops_sub : (ops₁ ++ ops₂ : List (HloOp τ sig (Elt F))).Forall fun op => op.bufs ⊆ tcRefs τ sig :=
  List.forall_iff_forall_mem.mpr fun op h => (List.mem_append.mp h).elim
    (List.forall_iff_forall_mem.mp ops_sub₁ op) (List.forall_iff_forall_mem.mp ops_sub₂ op)

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The first stage, from any contents -/

set_option maxRecDepth 8192 in
theorem stage1_v16 (V : Valuation τ sig (Elt F)) :
    after ops₁ V (Proc.devRef .tc main_v16) = Read.val_main_v16 (F := F) (V (Proc.devRef .tc main_arg0)) := by
  after_results_simp <;> rfl

set_option maxRecDepth 8192 in
theorem stage1_v18 (V : Valuation τ sig (Elt F)) :
    after ops₁ V (Proc.devRef .tc main_v18) = Read.val_main_v18 (F := F) (V (Proc.devRef .tc main_arg1)) := by
  after_results_simp <;> rfl

set_option maxRecDepth 8192 in
theorem stage1_arg0 (V : Valuation τ sig (Elt F)) :
    after ops₁ V (Proc.devRef .tc main_arg0) = V (Proc.devRef .tc main_arg0) := by
  after_results_simp <;> rfl

set_option maxRecDepth 8192 in
theorem stage1_arg1 (V : Valuation τ sig (Elt F)) :
    after ops₁ V (Proc.devRef .tc main_arg1) = V (Proc.devRef .tc main_arg1) := by
  after_results_simp <;> rfl

/-! ## The second stage, from any contents holding the first stage's two values and the first argument -/

set_option maxRecDepth 8192 in
theorem stage2_v39 (W : Valuation τ sig (Elt F)) (x0 : (⟨S8x1x4096x481x2, .f32⟩ : BufTy).Contents (Elt F))
    (x1 : (⟨S8x5x4096x96x2, .f32⟩ : BufTy).Contents (Elt F))
    (h16 : W (Proc.devRef .tc main_v16) = Read.val_main_v16 (F := F) x0)
    (h18 : W (Proc.devRef .tc main_v18) = Read.val_main_v18 (F := F) x1)
    (h0 : W (Proc.devRef .tc main_arg0) = x0) :
    after ops₂ W (Proc.devRef .tc main_v39) = Read.val_main_v39 (F := F) x0 x1 := by
  after_results
  rw [h16, h18, h0]
  rfl

set_option maxRecDepth 8192 in
theorem stage2_arg0 (W : Valuation τ sig (Elt F)) :
    after ops₂ W (Proc.devRef .tc main_arg0) = W (Proc.devRef .tc main_arg0) := by
  after_results_simp <;> rfl

set_option maxRecDepth 8192 in
theorem stage2_arg1 (W : Valuation τ sig (Elt F)) :
    after ops₂ W (Proc.devRef .tc main_arg1) = W (Proc.devRef .tc main_arg1) := by
  after_results_simp <;> rfl

/-! ## The whole line -/

theorem after_v39 (V : Valuation τ sig (Elt F)) :
    after (ops₁ ++ ops₂) V (Proc.devRef .tc main_v39)
      = Read.val_main_v39 (F := F) (V (Proc.devRef .tc main_arg0)) (V (Proc.devRef .tc main_arg1)) := by
  rw [after_append]
  exact stage2_v39 _ _ _ (stage1_v16 V) (stage1_v18 V) (stage1_arg0 V)

theorem after_arg0 (V : Valuation τ sig (Elt F)) :
    after (ops₁ ++ ops₂) V (Proc.devRef .tc main_arg0) = V (Proc.devRef .tc main_arg0) := by
  rw [after_append, stage2_arg0, stage1_arg0]

theorem after_arg1 (V : Valuation τ sig (Elt F)) :
    after (ops₁ ++ ops₂) V (Proc.devRef .tc main_arg1) = V (Proc.devRef .tc main_arg1) := by
  rw [after_append, stage2_arg1, stage1_arg1]

/-- On every device, for any float values, from any memory with zero counters: every weakly fair execution of
    the program terminates with the result at the stage function of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Read.val_main_v39 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (after_v39 _),
      (h c main_arg0).trans (after_arg0 _),
      (h c main_arg1).trans (after_arg1 _)⟩)
    (run_seq scopedRefs_eq scopedSems_eq defs main (fun _ => ops₁ ++ ops₂) main_eq (fun _ => ops_sub) m ρ)

end Cert.ReferenceIdeal.RefValue

end
-- ==== Proof.lean ====
/-
  The certificate of a causal five-tap complex filter on the low band of a spectrogram.

  The arguments are a spectrogram `x` : [8, 1, 4096, 481, 2] (batch, 1, time, frequency, real/imaginary part) and
  filter coefficients `w` : [8, 5, 4096, 96, 2] (batch, tap, time, frequency, part). On the 96 lowest frequencies the
  result at time `t` is  y(t) = ∑ o < 5, x(t + o - 4) · w(o, t)  as complex numbers, with x = 0 before time 0; the
  frequencies from 96 up pass through unchanged (Proof/FirSpec.lean: `Cert.Fir.low`).

  The kernel splits the low band and the coefficients into real and imaginary parts, walks 8 batches by 4 blocks of
  1024 time steps, and at each block lays the last four time steps of the block before (zero at a batch's first
  block) above the block's own rows; tap `o` at row `r` then reads row `r + o`. It accumulates the five complex
  products from zero, one term at a time, and keeps the block's last four rows for the next block. Read at an index,
  the two arrays it writes are the real and imaginary parts of y (Proof/FirPoint.lean, FirBlocks.lean), and the host
  joins them and the untouched high frequencies into the result (Proof/FirTail.lean).

  The reference pads the low band with four zero time steps, gathers the five-step windows at the indices
  t + o, multiplies by the coefficients and sums over the taps (Proof/RefRead.lean, over the reference's run in
  Proof/RefRun.lean).

  The two sides group the same ten real products differently — (acc + xr·wr) - xi·wi tap after tap, against the sum
  of the five differences; on the extended reals a difference is the sum with the negative and sums regroup freely,
  so they are equal for all inputs, finite or not: the precondition is not used by the value claim.

  The idealization rewrote no operation, so what it preserves is nothing to prove.
-/
import proofs.«130019_j55765855371924_1_alg».proof.Defs
import proofs.«130019_j55765855371924_1_alg».proof.Proof.Gen.Kernel
import proofs.«130019_j55765855371924_1_alg».proof.Proof.Gen.Kernel.Skeleton
import proofs.«130019_j55765855371924_1_alg».proof.Proof.Gen.Kernel.Launch
import proofs.«130019_j55765855371924_1_alg».proof.Proof.Gen.Kernel.Points
import proofs.«130019_j55765855371924_1_alg».proof.Proof.Gen.Kernel.Frame
import proofs.«130019_j55765855371924_1_alg».proof.Proof.Gen.KernelIdeal
import proofs.«130019_j55765855371924_1_alg».proof.Proof.Gen.KernelIdeal.Skeleton
import proofs.«130019_j55765855371924_1_alg».proof.Proof.Gen.KernelIdeal.Launch
import proofs.«130019_j55765855371924_1_alg».proof.Proof.Gen.KernelIdeal.Points
import proofs.«130019_j55765855371924_1_alg».proof.Proof.Gen.KernelIdeal.Frame
import proofs.«130019_j55765855371924_1_alg».proof.Proof.Gen.ReferenceIdeal
import proofs.«130019_j55765855371924_1_alg».proof.Proof.Gen.Pre_finite_inputs
import proofs.«130019_j55765855371924_1_alg».proof.Proof.FirTail
import proofs.«130019_j55765855371924_1_alg».proof.Proof.RefRead
import proofs.«130019_j55765855371924_1_alg».proof.Proof.RefRun
import Idealize.ShloMosaic.Adequacy
import Idealize.ShloMosaic.Init

set_option maxRecDepth 16384

noncomputable section

open Idealize.ShloMosaic Idealize.ShloMosaic.TcCoe Idealize.SL.Sem

namespace Cert.Proof

/-- The reference's result is the kernel's: both are the specification's low band joined, along the frequency axis,
    to the same slice of the spectrogram. -/
theorem result_eq (x0 : Cert.Fir.SX.Idx → EReal) (x1 : Cert.Fir.SW.Idx → EReal) :
    Cert.ReferenceIdeal.Read.val_main_v39 (F := Ideal) x0 x1 = Cert.KernelIdeal.FirValue.result x0 x1 := by
  unfold Cert.ReferenceIdeal.Read.val_main_v39 Cert.ReferenceIdeal.Read.val_main_v38
  rw [Cert.ReferenceIdeal.RefValue.low_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories that agree on the two arguments both programs run to the same result. -/
theorem algebraic : Cert.algebraic_KernelIdeal_ReferenceIdeal := by
  intro m ρ m' ρ' _ hagree
  refine ⟨_, Cert.KernelIdeal.FirValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
